-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x256 : Shape := ⟨2, ![256, 256]⟩
abbrev S2048x256 : Shape := ⟨2, ![2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S256x256 .f32) (main_arg5 : FVec F S2048x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  main_v28

def fn {F : FTy → Type} [FloatOps F] (main_arg0 : FVec F S16x2048x256 .f32) (main_arg1 : FVec F S16x2048x256 .f32) (main_arg2 : FVec F S256x256 .f32) (main_arg3 : FVec F S256x256 .f32) (main_arg4 : FVec F S256x256 .f32) (main_arg5 : FVec F S2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S16x2048x256 : Shape := ⟨3, ![16, 2048, 256]⟩
abbrev S256x256 : Shape := ⟨2, ![256, 256]⟩
abbrev S2048x256 : Shape := ⟨2, ![2048, 256]⟩
abbrev S256x2048 : Shape := ⟨2, ![256, 2048]⟩
abbrev S1x2048x256 : Shape := ⟨3, ![1, 2048, 256]⟩
abbrev S1x512x256 : Shape := ⟨3, ![1, 512, 256]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x2048, .f32⟩
  | .hbm, ⟨13, _⟩ => ⟨S256x2048, .bf16⟩
  | .hbm, ⟨14, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .bf16⟩
  | .local _ .vmem, ⟨5, _⟩ => ⟨S256x2048, .bf16⟩
  | .local _ .vmem, ⟨6, _⟩ => ⟨S256x256, .bf16⟩
  | .local _ .vmem, ⟨7, _⟩ => ⟨S256x256, .bf16⟩
  | .local _ .vmem, ⟨8, _⟩ => ⟨S1x2048x256, .f32⟩
  | .local _ .vmem, ⟨9, _⟩ => ⟨S1x2048x256, .f32⟩
  | .local _ .vmem, ⟨10, _⟩ => ⟨S256x2048, .f32⟩
  | .local _ .vmem, ⟨11, _⟩ => ⟨S2048x256, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v19 : BitVec 32 := Scalar.muli arg10 c512_i32
  v19
def k0_off1 (k0_t1 : Fin k0_t1_loop.trips) : Fin 3 → Nat :=
  let c0_16 : Index := 0#32
  let c0_i32 : BitVec 32 := 0#32
  let c1_i32 : BitVec 32 := 1#32
  let arg10 : BitVec 32 := Scf.iv c0_i32 c1_i32 k0_t1
  let c512_i32 : BitVec 32 := 512#32
  let v19 : BitVec 32 := Scalar.muli arg10 c512_i32
  let v20 : BitVec 32 := v19
  let v21 : Index := Scalar.indexCast v20
  let c0_17 : Index := 0#32
  ![0, v21.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v19 : BitVec 32 := Scalar.muli arg10 c512_i32
  let v20 : BitVec 32 := v19
  let v33 : Index := Scalar.indexCast v20
  let c0_23 : Index := 0#32
  ![v33.toNat, 0]
@[reducible] def k0_t2_loop : Scf.Loop 32 :=
  let c0_i32_12 : BitVec 32 := 0#32
  let c4_i32_13 : BitVec 32 := 4#32
  let v18 : BitVec 32 := Scalar.addi c0_i32_12 c4_i32_13
  let c1_i32_14 : BitVec 32 := 1#32
  ⟨c0_i32_12, v18, c1_i32_14⟩
def k0_mult2 (k0_t2 : Fin k0_t2_loop.trips) : BitVec 32 :=
  let c0_i32_12 : BitVec 32 := 0#32
  let c1_i32_14 : BitVec 32 := 1#32
  let arg10 : BitVec 32 := Scf.iv c0_i32_12 c1_i32_14 k0_t2
  let c512_i32 : BitVec 32 := 512#32
  let v19 : BitVec 32 := Scalar.muli arg10 c512_i32
  v19
def k0_off3 (k0_t2 : Fin k0_t2_loop.trips) : Fin 3 → Nat :=
  let c0_16 : Index := 0#32
  let c0_i32_12 : BitVec 32 := 0#32
  let c1_i32_14 : BitVec 32 := 1#32
  let arg10 : BitVec 32 := Scf.iv c0_i32_12 c1_i32_14 k0_t2
  let c512_i32 : BitVec 32 := 512#32
  let v19 : BitVec 32 := Scalar.muli arg10 c512_i32
  let v20 : BitVec 32 := v19
  let v21 : Index := Scalar.indexCast v20
  let c0_17 : Index := 0#32
  ![0, v21.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x256_S256x256_1_0 : S256x256.Transposes [1, 0] S256x256
  bitsLt_bf16_f32 : FTy.bits .bf16 < FTy.bits .f32
  transposes_S2048x256_S256x2048_1_0 : S2048x256.Transposes [1, 0] S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S1x512x256 : 0 < S1x512x256.numel
  shapeCasts_S1x512x256_S512x256 : S1x512x256.ShapeCasts S512x256
  h_S512x256 : 0 < S512x256.numel
  shapeCasts_S512x256_S512x256 : S512x256.ShapeCasts S512x256
  reduces_S512x2048_S512 : S512x2048.Reduces [1] S512
  shapeCasts_S512_S512x1 : S512.ShapeCasts S512x1
  broadcasts_S512x1_S512x2048 : S512x1.Broadcasts S512x2048
  inb_S2048x256_S2048x256_0_0 : ∀ a, (![0, 0] : Fin 2 → Nat) a + S2048x256.size a ≤ S2048x256.size a
  h_S2048x256 : 0 < S2048x256.numel
  shapeCasts_S512x256_S1x512x256 : S512x256.ShapeCasts S1x512x256
  dot_S512x256_S256x256_S512x256_1_0_0_1_n_n_wf : DotDims.WF S512x256 S256x256 S512x256 [1] [0] [0] [1] [] []
  dot_S512x256_S256x2048_S512x2048_1_0_0_1_n_n_wf : DotDims.WF S512x256 S256x2048 S512x2048 [1] [0] [0] [1] [] []
  dot_S512x256_S512x2048_S256x2048_0_0_1_1_n_n_wf : DotDims.WF S512x256 S512x2048 S256x2048 [0] [0] [1] [1] [] []
  dot_S512x2048_S2048x256_S512x256_1_0_0_1_n_n_wf : DotDims.WF S512x2048 S2048x256 S512x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x256.size a ≤ S1x2048x256.size a
  k0_off2_inb : ∀ k0_t1 : Fin k0_t1_loop.trips, ∀ a, (k0_off2 k0_t1) a + S512x256.size a ≤ S2048x256.size a
  k0_off2_packedbf16 : ∀ k0_t1 : Fin k0_t1_loop.trips, (Rect.unit (s := S2048x256) (k0_off2 k0_t1) S512x256.size (k0_off2_inb k0_t1)).PackedRows (EltTy.packing .bf16)
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S1x512x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S16x2048x256.size a
  hwx0_6 : ∀ i : grid0.Coords, EltTy.bits .f32 = 32 ∨ (Rect.block (s := S16x2048x256) S1x2048x256.size (cc0_transform_6 i) (hinb0_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S512x2048_S256x2048_0_0_1_1_n_n : DotDims S512x256 S512x2048 S256x2048 where
  lhsContracting := [0]
  rhsContracting := [0]
  lhsNonContracting := [1]
  rhsNonContracting := [1]
  lhsBatch := []
  rhsBatch := []
  wf := dot_S512x256_S512x2048_S256x2048_0_0_1_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S256x256 : Shape := ⟨2, ![256, 256]⟩
abbrev S2048x256 : Shape := ⟨2, ![2048, 256]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S2048x256, .f32⟩
  | .hbm, ⟨6, _⟩ => ⟨S16x2048x256, .f32⟩
  | .hbm, ⟨7, _⟩ => ⟨S16x2048x256, .f32⟩
  | .hbm, ⟨8, _⟩ => ⟨S16x2048x256, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x256_S256x256_S16x2048x256_2_1_01_0_n_n_wf : DotDims.WF S16x2048x256 S256x256 S16x2048x256 [2] [1] [0, 1] [0] [] []
  dot_S16x2048x256_S2048x256_S16x2048x2048_2_1_01_0_n_n_wf : DotDims.WF S16x2048x256 S2048x256 S16x2048x2048 [2] [1] [0, 1] [0] [] []
  dot_S16x2048x256_S16x2048x256_S16x2048x2048_2_2_1_1_0_0_wf : DotDims.WF S16x2048x256 S16x2048x256 S16x2048x2048 [2] [2] [1] [1] [0] [0]
  dot_S16x2048x2048_S16x2048x2048_S16x2048x2048_2_1_1_2_0_0_wf : DotDims.WF S16x2048x2048 S16x2048x2048 S16x2048x2048 [2] [1] [1] [2] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S256x256_S16x2048x256_2_1_01_0_n_n : DotDims S16x2048x256 S256x256 S16x2048x256 where
  lhsContracting := [2]
  rhsContracting := [1]
  lhsNonContracting := [0, 1]
  rhsNonContracting := [0]
  lhsBatch := []
  rhsBatch := []
  wf := dot_S16x2048x256_S256x256_S16x2048x256_2_1_01_0_n_n_wf
def dot_S16x2048x256_S2048x256_S16x2048x2048_2_1_01_0_n_n : DotDims S16x2048x256 S2048x256 S16x2048x2048 where
  lhsContracting := [2]
  rhsContracting := [1]
  lhsNonContracting := [0, 1]
  rhsNonContracting := [0]
  lhsBatch := []
  rhsBatch := []
  wf := dot_S16x2048x256_S2048x256_S16x2048x2048_2_1_01_0_n_n_wf
def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x2048_S16x2048x2048_2_1_1_2_0_0 : DotDims S16x2048x2048 S16x2048x2048 S16x2048x2048 where
  lhsContracting := [2]
  rhsContracting := [1]
  lhsNonContracting := [1]
  rhsNonContracting := [2]
  lhsBatch := [0]
  rhsBatch := [0]
  wf := dot_S16x2048x2048_S16x2048x2048_S16x2048x2048_2_1_1_2_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.KernelTrips.lean ====
/-
  What one trip of each of the kernel's two counted loops writes, read off the generated trips.

  A trip of the first loop (run `k` of the 512 positions) stores two pieces: into the accumulator, over the whole
  array, the payload that adds the run's contribution to what the accumulator held; and into the value buffer, at
  the run's rows, the run's value projection.  A trip of the second loop stores one piece: into the output, at the
  run's rows, the attention payload of the run's rows of the first activation array and the whole value buffer.
  Each piece list is the generated trip's own, a single store; the lemmas open the trip's definition once and state
  the list, first with the loads as the trip spells them, then — for memrefs held at the contents that read given
  arrays — with each load as the array read at the load's rectangle.
-/
import proofs.«165236_j90744069030056_2_alg».proof.Proof.Gen.Kernel.Loops
import Idealize.ShloMosaic.Lib.Pipeline.FrameBody
import Idealize.ShloMosaic.Lib.Pipeline.Value

set_option maxRecDepth 8192

noncomputable section

namespace Cert.Kernel.Trips

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The piece lists as the trips spell them -/

/-- A trip of the second loop writes one piece into the output: at the run's rows, the attention payload of the run's
    rows of the first activation array and of the whole value buffer. -/
theorem trip_k0_t2_pieces (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 : BufTy.Contents (Elt F) arg9.view.ty) (k : Fin k0_t2_loop.trips) :
    (trip_k0_t2 (F := F) 𝒱 c bd i arg1 harg1 arg2 harg2 arg3 harg3 arg4 harg4 arg5 harg5 arg6 harg6 arg7 harg7 arg8 harg8 arg9 harg9 v6 v13 X_arg1 X_arg9 k).1
      = [⟨Rect.unit (s := S1x2048x256) (k0_off3 k) S1x512x256.size (k0_off3_inb k),
          k0_pay5 v6 v13
            (arg1.view.readAt (Elt F) (Rect.unit (s := S1x2048x256) (k0_off3 k) S1x512x256.size (k0_off3_inb k)).toLoadRect X_arg1)
            (arg9.view.readAt (Elt F) (Rect.unit (s := S2048x256) ![0, 0] S2048x256.size inb_S2048x256_S2048x256_0_0).toLoadRect X_arg9)⟩] := by
  unfold trip_k0_t2
  rfl

/-- A trip of the first loop writes one piece into the accumulator: over the whole array, the payload of the run's
    rows of the two activation arrays and of what the accumulator held. -/
theorem trip_k0_t1_pieces_acc (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 X_arg1 X_arg2 k).1 f_arg8 f_arg9
      = [⟨Rect.unit (s := S256x2048) ![0, 0] S256x2048.size inb_S256x2048_S256x2048_0_0,
          k0_pay4 v0 v2
            (arg1.view.readAt (Elt F) (Rect.unit (s := S1x2048x256) (k0_off1 k) S1x512x256.size (k0_off1_inb k)).toLoadRect X_arg1)
            (arg2.view.readAt (Elt F) (Rect.unit (s := S1x2048x256) (k0_off1 k) S1x512x256.size (k0_off1_inb k)).toLoadRect X_arg2)
            (arg8.view.readAt (Elt F) (Rect.unit (s := S256x2048) ![0, 0] S256x2048.size inb_S256x2048_S256x2048_0_0).toLoadRect f_arg8)⟩] := by
  unfold trip_k0_t1
  rfl

/-- A trip of the first loop writes one piece into the value buffer: at the run's rows, the value projection of the
    run's rows of the first activation array. -/
theorem trip_k0_t1_pieces_val (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 X_arg1 X_arg2 k).2.1 f_arg8 f_arg9
      = [⟨Rect.unit (s := S2048x256) (k0_off2 k) S512x256.size (k0_off2_inb k),
          k0_pay3 v4
            (arg1.view.readAt (Elt F) (Rect.unit (s := S1x2048x256) (k0_off1 k) S1x512x256.size (k0_off1_inb k)).toLoadRect X_arg1)⟩] := by
  unfold trip_k0_t1
  rfl

/-! ## The same, at memrefs held at the contents that read given arrays -/

/-- The second loop's piece, the first activation array read as `x1` and the value buffer as `x9`: the loads are `x1`
    at the run's rectangle and `x9` itself. -/
theorem trip_k0_t2_pieces_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (x1 : S1x2048x256.Idx → Elt F .f32) (x9 : S2048x256.Idx → Elt F .bf16) (k : Fin k0_t2_loop.trips) :
    (trip_k0_t2 (F := F) 𝒱 c bd i arg1 harg1 arg2 harg2 arg3 harg3 arg4 harg4 arg5 harg5 arg6 harg6 arg7 harg7 arg8 harg8 arg9 harg9 v6 v13 (harg1.unread x1) (harg9.unread x9) k).1
      = [⟨Rect.unit (s := S1x2048x256) (k0_off3 k) S1x512x256.size (k0_off3_inb k),
          k0_pay5 v6 v13
            (View.ld x1 (Rect.unit (s := S1x2048x256) (k0_off3 k) S1x512x256.size (k0_off3_inb k))) x9⟩] := by
  rw [trip_k0_t2_pieces, View.readAt_eq_ld, View.readAt_eq_ld, harg1.read_unread, harg9.read_unread,
    View.ld_unit_zero (S := S2048x256) (funext fun a => by match a with | ⟨0, _⟩ => rfl | ⟨1, _⟩ => rfl)]

/-- The first loop's accumulator piece, the two activation arrays read as `x1` and `x2`: the loads are `x1` and `x2` at
    the run's rectangle, and what the accumulator's contents read. -/
theorem trip_k0_t1_pieces_acc_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x1 x2 : S1x2048x256.Idx → Elt F .f32) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 (harg1.unread x1) (harg2.unread x2) k).1 f_arg8 f_arg9
      = [⟨Rect.unit (s := S256x2048) ![0, 0] S256x2048.size inb_S256x2048_S256x2048_0_0,
          k0_pay4 v0 v2
            (View.ld x1 (Rect.unit (s := S1x2048x256) (k0_off1 k) S1x512x256.size (k0_off1_inb k)))
            (View.ld x2 (Rect.unit (s := S1x2048x256) (k0_off1 k) S1x512x256.size (k0_off1_inb k)))
            (arg8.view.read (Elt F) f_arg8)⟩] := by
  rw [trip_k0_t1_pieces_acc, View.readAt_eq_ld, View.readAt_eq_ld, View.readAt_eq_ld, harg1.read_unread,
    harg2.read_unread,
    View.ld_unit_zero (S := S256x2048) (funext fun a => by match a with | ⟨0, _⟩ => rfl | ⟨1, _⟩ => rfl)]

/-- The first loop's value-buffer piece, the first activation array read as `x1`: the load is `x1` at the run's
    rectangle. -/
theorem trip_k0_t1_pieces_val_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x1 x2 : S1x2048x256.Idx → Elt F .f32) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 (harg1.unread x1) (harg2.unread x2) k).2.1 f_arg8 f_arg9
      = [⟨Rect.unit (s := S2048x256) (k0_off2 k) S512x256.size (k0_off2_inb k),
          k0_pay3 v4 (View.ld x1 (Rect.unit (s := S1x2048x256) (k0_off1 k) S1x512x256.size (k0_off1_inb k)))⟩] := by
  rw [trip_k0_t1_pieces_val, View.readAt_eq_ld, harg1.read_unread]

end Cert.Kernel.Trips

end
-- ==== Proof.KernelLoopFolds.lean ====
/-
  The two counted loops' accumulated piece lists do not depend on the value buffer's initial contents.

  The first loop's trips write the value buffer but never read it back into what they store, so the list of pieces of
  the first `k` trips is the same whatever the value buffer held at loop entry; the second loop's trips read the value
  buffer only through one whole load, so its list depends on the buffer's contents only through what that load reads;
  and after the first loop the four value pieces — 512 rows each, at rows 0, 512, 1024, 1536 — tile the whole
  2048 × 256 buffer, so what the buffer then reads is the pieces' own function, whatever it held before.
-/
import proofs.«165236_j90744069030056_2_alg».proof.Proof.KernelTrips
import Idealize.ShloMosaic.Lib.Ring

set_option maxRecDepth 8192

noncomputable section

namespace Cert.Kernel.Folds

open Cert.Kernel.Gen Cert.Kernel.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The first loop: no dependence on the value buffer's contents -/

/-- One trip's two piece lists are the same at any two contents of the value buffer. -/
theorem tripL_k0_t1_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 f_arg9' : BufTy.Contents (Elt F) arg9.view.ty) :
    tripL_k0_t1 (F := F) 𝒱 c bd i arg1 harg1 arg2 harg2 arg3 harg3 arg4 harg4 arg5 harg5 arg6 harg6 arg7 harg7 arg8 harg8 arg9 harg9 v0 v2 v4 X_arg1 X_arg2 k f_arg8 f_arg9
      = tripL_k0_t1 (F := F) 𝒱 c bd i arg1 harg1 arg2 harg2 arg3 harg3 arg4 harg4 arg5 harg5 arg6 harg6 arg7 harg7 arg8 harg8 arg9 harg9 v0 v2 v4 X_arg1 X_arg2 k f_arg8 f_arg9' :=
  Prod.ext
    ((trip_k0_t1_pieces_acc 𝒱 c bd i arg1 harg1 arg2 harg2 arg3 harg3 arg4 harg4 arg5 harg5 arg6 harg6 arg7 harg7 arg8 harg8 arg9 harg9 v0 v2 v4 X_arg1 X_arg2 k f_arg8 f_arg9).trans
      (trip_k0_t1_pieces_acc 𝒱 c bd i arg1 harg1 arg2 harg2 arg3 harg3 arg4 harg4 arg5 harg5 arg6 harg6 arg7 harg7 arg8 harg8 arg9 harg9 v0 v2 v4 X_arg1 X_arg2 k f_arg8 f_arg9').symm)
    ((trip_k0_t1_pieces_val 𝒱 c bd i arg1 harg1 arg2 harg2 arg3 harg3 arg4 harg4 arg5 harg5 arg6 harg6 arg7 harg7 arg8 harg8 arg9 harg9 v0 v2 v4 X_arg1 X_arg2 k f_arg8 f_arg9).trans
      (trip_k0_t1_pieces_val 𝒱 c bd i arg1 harg1 arg2 harg2 arg3 harg3 arg4 harg4 arg5 harg5 arg6 harg6 arg7 harg7 arg8 harg8 arg9 harg9 v0 v2 v4 X_arg1 X_arg2 k f_arg8 f_arg9').symm)

/-- One step of the accumulation is the same at any two initial contents of the value buffer. -/
theorem pb_k0_t1Step_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 G_arg9' : BufTy.Contents (Elt F) arg9.view.ty) (k : ℕ) (prev : List (View.Piece (Elt F) S256x2048 .f32) × List (View.Piece (Elt F) S2048x256 .bf16)) :
    pb_k0_t1Step (F := F) 𝒱 c bd i arg1 harg1 arg2 harg2 arg3 harg3 arg4 harg4 arg5 harg5 arg6 harg6 arg7 harg7 arg8 harg8 arg9 harg9 v0 v2 v4 X_arg1 X_arg2 G_arg8 G_arg9 k prev
      = pb_k0_t1Step (F := F) 𝒱 c bd i arg1 harg1 arg2 harg2 arg3 harg3 arg4 harg4 arg5 harg5 arg6 harg6 arg7 harg7 arg8 harg8 arg9 harg9 v0 v2 v4 X_arg1 X_arg2 G_arg8 G_arg9' k prev := by
  unfold pb_k0_t1Step
  by_cases h : k < k0_t1_loop.trips
  · rw [dif_pos h, dif_pos h,
      tripL_k0_t1_indep 𝒱 c bd i arg1 harg1 arg2 harg2 arg3 harg3 arg4 harg4 arg5 harg5 arg6 harg6 arg7 harg7 arg8 harg8 arg9 harg9 v0 v2 v4 X_arg1 X_arg2 ⟨k, h⟩ _ (arg9.view.writes (Elt F) G_arg9 prev.2) (arg9.view.writes (Elt F) G_arg9' prev.2)]
  · rw [dif_neg h, dif_neg h]

/-- The pieces of the first `k` trips are the same at any two initial contents of the value buffer. -/
theorem pb_k0_t1_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 G_arg9' : BufTy.Contents (Elt F) arg9.view.ty) (k : ℕ) :
    pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 k
      = pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9' k := by
  induction k with
  | zero => rfl
  | succ k ih =>
    rw [pb_k0_t1.eq_2, pb_k0_t1.eq_2, ih]
    exact pb_k0_t1Step_indep 𝒱 c bd i arg1 harg1 arg2 harg2 arg3 harg3 arg4 harg4 arg5 harg5 arg6 harg6 arg7 harg7 arg8 harg8 arg9 harg9 v0 v2 v4 X_arg1 X_arg2 G_arg8 G_arg9 G_arg9' k _

/-! ## The second loop: dependence on the value buffer only through its whole load -/

/-- One step of the second accumulation, at two contents of the value buffer that the whole load reads alike. -/
theorem pb_k0_t2Step_congr (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 X_arg9' : BufTy.Contents (Elt F) arg9.view.ty)
    (h : arg9.view.readAt (Elt F) (Rect.unit (s := S2048x256) ![0, 0] S2048x256.size inb_S2048x256_S2048x256_0_0).toLoadRect X_arg9 = arg9.view.readAt (Elt F) (Rect.unit (s := S2048x256) ![0, 0] S2048x256.size inb_S2048x256_S2048x256_0_0).toLoadRect X_arg9')
    (k : ℕ) (prev : List (View.Piece (Elt F) S1x2048x256 .f32)) :
    pb_k0_t2Step (F := F) 𝒱 c bd i arg1 harg1 arg2 harg2 arg3 harg3 arg4 harg4 arg5 harg5 arg6 harg6 arg7 harg7 arg8 harg8 arg9 harg9 v6 v13 X_arg1 X_arg9 k prev
      = pb_k0_t2Step (F := F) 𝒱 c bd i arg1 harg1 arg2 harg2 arg3 harg3 arg4 harg4 arg5 harg5 arg6 harg6 arg7 harg7 arg8 harg8 arg9 harg9 v6 v13 X_arg1 X_arg9' k prev := by
  unfold pb_k0_t2Step
  by_cases hk : k < k0_t2_loop.trips
  · rw [dif_pos hk, dif_pos hk]
    show (trip_k0_t2 (F := F) 𝒱 c bd i arg1 harg1 arg2 harg2 arg3 harg3 arg4 harg4 arg5 harg5 arg6 harg6 arg7 harg7 arg8 harg8 arg9 harg9 v6 v13 X_arg1 X_arg9 ⟨k, hk⟩).1 ++ prev
      = (trip_k0_t2 (F := F) 𝒱 c bd i arg1 harg1 arg2 harg2 arg3 harg3 arg4 harg4 arg5 harg5 arg6 harg6 arg7 harg7 arg8 harg8 arg9 harg9 v6 v13 X_arg1 X_arg9' ⟨k, hk⟩).1 ++ prev
    rw [trip_k0_t2_pieces, trip_k0_t2_pieces, h]
  · rw [dif_neg hk, dif_neg hk]

/-- The pieces of the first `k` trips of the second loop, at two contents of the value buffer that the whole load
    reads alike. -/
theorem pb_k0_t2_congr (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 X_arg9' : BufTy.Contents (Elt F) arg9.view.ty)
    (h : arg9.view.readAt (Elt F) (Rect.unit (s := S2048x256) ![0, 0] S2048x256.size inb_S2048x256_S2048x256_0_0).toLoadRect X_arg9 = arg9.view.readAt (Elt F) (Rect.unit (s := S2048x256) ![0, 0] S2048x256.size inb_S2048x256_S2048x256_0_0).toLoadRect X_arg9')
    (k : ℕ) :
    pb_k0_t2 (F := F) 𝒱 c bd i arg1 harg1 arg2 harg2 arg3 harg3 arg4 harg4 arg5 harg5 arg6 harg6 arg7 harg7 arg8 harg8 arg9 harg9 v6 v13 X_arg1 X_arg9 k = pb_k0_t2 (F := F) 𝒱 c bd i arg1 harg1 arg2 harg2 arg3 harg3 arg4 harg4 arg5 harg5 arg6 harg6 arg7 harg7 arg8 harg8 arg9 harg9 v6 v13 X_arg1 X_arg9' k := by
  induction k with
  | zero => rfl
  | succ k ih =>
    rw [pb_k0_t2.eq_2, pb_k0_t2.eq_2, ih]
    exact pb_k0_t2Step_congr 𝒱 c bd i arg1 harg1 arg2 harg2 arg3 harg3 arg4 harg4 arg5 harg5 arg6 harg6 arg7 harg7 arg8 harg8 arg9 harg9 v6 v13 X_arg1 X_arg9 X_arg9' h k _

/-! ## After the first loop the value pieces tile the value buffer -/

/-- The four value pieces (512 rows each, at rows 0, 512, 1024, 1536) cover every index of the 2048 × 256 buffer. -/
theorem cover_val (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (y : S2048x256.Idx) :
    ∃ p ∈ (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2, y ∈ p.1.set :=
  View.cover_of_tiledL (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2 S512x256.size (by sl_kernel_rfl) y

/-- So what the value buffer reads after the first loop is the pieces' own function, whatever it held before. -/
theorem read_val_eq_canon (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (f : BufTy.Contents (Elt F) arg9.view.ty) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2) = View.canon (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2 :=
  View.read_writes_eq_canon arg9.view f _ (cover_val 𝒱 c bd i arg1 harg1 arg2 harg2 arg3 harg3 arg4 harg4 arg5 harg5 arg6 harg6 arg7 harg7 arg8 harg8 arg9 harg9 v0 v2 v4 X_arg1 X_arg2 G_arg8 G_arg9)

/-- The whole load of the value buffer after the first loop reads the same at any two prior contents. -/
theorem readAt_val_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (f f' : BufTy.Contents (Elt F) arg9.view.ty) :
    arg9.view.readAt (Elt F) (Rect.unit (s := S2048x256) ![0, 0] S2048x256.size inb_S2048x256_S2048x256_0_0).toLoadRect (arg9.view.writes (Elt F) f (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2)
      = arg9.view.readAt (Elt F) (Rect.unit (s := S2048x256) ![0, 0] S2048x256.size inb_S2048x256_S2048x256_0_0).toLoadRect (arg9.view.writes (Elt F) f' (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2) := by
  rw [View.readAt_eq_ld, View.readAt_eq_ld, read_val_eq_canon, read_val_eq_canon]

end Cert.Kernel.Folds

end
-- ==== Proof.Trips.lean ====
/-
  What one trip of each of the kernel's two counted loops writes, read off the generated trips.

  A trip of the first loop (run `k` of the 512 positions) stores two pieces: into the accumulator, over the whole
  array, the payload that adds the run's contribution to what the accumulator held; and into the value buffer, at
  the run's rows, the run's value projection.  A trip of the second loop stores one piece: into the output, at the
  run's rows, the attention payload of the run's rows of the first activation array and the whole value buffer.
  Each piece list is the generated trip's own, a single store; the lemmas open the trip's definition once and state
  the list, first with the loads as the trip spells them, then — for memrefs held at the contents that read given
  arrays — with each load as the array read at the load's rectangle.
-/
import proofs.«165236_j90744069030056_2_alg».proof.Proof.Gen.KernelIdeal.Loops
import Idealize.ShloMosaic.Lib.Pipeline.FrameBody
import Idealize.ShloMosaic.Lib.Pipeline.Value

set_option maxRecDepth 8192

noncomputable section

namespace Cert.KernelIdeal.Trips

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The piece lists as the trips spell them -/

/-- A trip of the second loop writes one piece into the output: at the run's rows, the attention payload of the run's
    rows of the first activation array and of the whole value buffer. -/
theorem trip_k0_t2_pieces (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 : BufTy.Contents (Elt F) arg9.view.ty) (k : Fin k0_t2_loop.trips) :
    (trip_k0_t2 (F := F) 𝒱 c bd i arg1 harg1 arg2 harg2 arg3 harg3 arg4 harg4 arg5 harg5 arg6 harg6 arg7 harg7 arg8 harg8 arg9 harg9 v6 v13 X_arg1 X_arg9 k).1
      = [⟨Rect.unit (s := S1x2048x256) (k0_off3 k) S1x512x256.size (k0_off3_inb k),
          k0_pay5 v6 v13
            (arg1.view.readAt (Elt F) (Rect.unit (s := S1x2048x256) (k0_off3 k) S1x512x256.size (k0_off3_inb k)).toLoadRect X_arg1)
            (arg9.view.readAt (Elt F) (Rect.unit (s := S2048x256) ![0, 0] S2048x256.size inb_S2048x256_S2048x256_0_0).toLoadRect X_arg9)⟩] := by
  unfold trip_k0_t2
  rfl

/-- A trip of the first loop writes one piece into the accumulator: over the whole array, the payload of the run's
    rows of the two activation arrays and of what the accumulator held. -/
theorem trip_k0_t1_pieces_acc (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 X_arg1 X_arg2 k).1 f_arg8 f_arg9
      = [⟨Rect.unit (s := S256x2048) ![0, 0] S256x2048.size inb_S256x2048_S256x2048_0_0,
          k0_pay4 v0 v2
            (arg1.view.readAt (Elt F) (Rect.unit (s := S1x2048x256) (k0_off1 k) S1x512x256.size (k0_off1_inb k)).toLoadRect X_arg1)
            (arg2.view.readAt (Elt F) (Rect.unit (s := S1x2048x256) (k0_off1 k) S1x512x256.size (k0_off1_inb k)).toLoadRect X_arg2)
            (arg8.view.readAt (Elt F) (Rect.unit (s := S256x2048) ![0, 0] S256x2048.size inb_S256x2048_S256x2048_0_0).toLoadRect f_arg8)⟩] := by
  unfold trip_k0_t1
  rfl

/-- A trip of the first loop writes one piece into the value buffer: at the run's rows, the value projection of the
    run's rows of the first activation array. -/
theorem trip_k0_t1_pieces_val (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 X_arg1 X_arg2 k).2.1 f_arg8 f_arg9
      = [⟨Rect.unit (s := S2048x256) (k0_off2 k) S512x256.size (k0_off2_inb k),
          k0_pay3 v4
            (arg1.view.readAt (Elt F) (Rect.unit (s := S1x2048x256) (k0_off1 k) S1x512x256.size (k0_off1_inb k)).toLoadRect X_arg1)⟩] := by
  unfold trip_k0_t1
  rfl

/-! ## The same, at memrefs held at the contents that read given arrays -/

/-- The second loop's piece, the first activation array read as `x1` and the value buffer as `x9`: the loads are `x1`
    at the run's rectangle and `x9` itself. -/
theorem trip_k0_t2_pieces_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (x1 : S1x2048x256.Idx → Elt F .f32) (x9 : S2048x256.Idx → Elt F .bf16) (k : Fin k0_t2_loop.trips) :
    (trip_k0_t2 (F := F) 𝒱 c bd i arg1 harg1 arg2 harg2 arg3 harg3 arg4 harg4 arg5 harg5 arg6 harg6 arg7 harg7 arg8 harg8 arg9 harg9 v6 v13 (harg1.unread x1) (harg9.unread x9) k).1
      = [⟨Rect.unit (s := S1x2048x256) (k0_off3 k) S1x512x256.size (k0_off3_inb k),
          k0_pay5 v6 v13
            (View.ld x1 (Rect.unit (s := S1x2048x256) (k0_off3 k) S1x512x256.size (k0_off3_inb k))) x9⟩] := by
  rw [trip_k0_t2_pieces, View.readAt_eq_ld, View.readAt_eq_ld, harg1.read_unread, harg9.read_unread,
    View.ld_unit_zero (S := S2048x256) (funext fun a => by match a with | ⟨0, _⟩ => rfl | ⟨1, _⟩ => rfl)]

/-- The first loop's accumulator piece, the two activation arrays read as `x1` and `x2`: the loads are `x1` and `x2` at
    the run's rectangle, and what the accumulator's contents read. -/
theorem trip_k0_t1_pieces_acc_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x1 x2 : S1x2048x256.Idx → Elt F .f32) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 (harg1.unread x1) (harg2.unread x2) k).1 f_arg8 f_arg9
      = [⟨Rect.unit (s := S256x2048) ![0, 0] S256x2048.size inb_S256x2048_S256x2048_0_0,
          k0_pay4 v0 v2
            (View.ld x1 (Rect.unit (s := S1x2048x256) (k0_off1 k) S1x512x256.size (k0_off1_inb k)))
            (View.ld x2 (Rect.unit (s := S1x2048x256) (k0_off1 k) S1x512x256.size (k0_off1_inb k)))
            (arg8.view.read (Elt F) f_arg8)⟩] := by
  rw [trip_k0_t1_pieces_acc, View.readAt_eq_ld, View.readAt_eq_ld, View.readAt_eq_ld, harg1.read_unread,
    harg2.read_unread,
    View.ld_unit_zero (S := S256x2048) (funext fun a => by match a with | ⟨0, _⟩ => rfl | ⟨1, _⟩ => rfl)]

/-- The first loop's value-buffer piece, the first activation array read as `x1`: the load is `x1` at the run's
    rectangle. -/
theorem trip_k0_t1_pieces_val_ld (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x1 x2 : S1x2048x256.Idx → Elt F .f32) (k : Fin k0_t1_loop.trips) (f_arg8 : BufTy.Contents (Elt F) arg8.view.ty) (f_arg9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 v0 v2 v4 (harg1.unread x1) (harg2.unread x2) k).2.1 f_arg8 f_arg9
      = [⟨Rect.unit (s := S2048x256) (k0_off2 k) S512x256.size (k0_off2_inb k),
          k0_pay3 v4 (View.ld x1 (Rect.unit (s := S1x2048x256) (k0_off1 k) S1x512x256.size (k0_off1_inb k)))⟩] := by
  rw [trip_k0_t1_pieces_val, View.readAt_eq_ld, harg1.read_unread]

end Cert.KernelIdeal.Trips

end
-- ==== Proof.LoopFolds.lean ====
/-
  The two counted loops' accumulated piece lists do not depend on the value buffer's initial contents.

  The first loop's trips write the value buffer but never read it back into what they store, so the list of pieces of
  the first `k` trips is the same whatever the value buffer held at loop entry; the second loop's trips read the value
  buffer only through one whole load, so its list depends on the buffer's contents only through what that load reads;
  and after the first loop the four value pieces — 512 rows each, at rows 0, 512, 1024, 1536 — tile the whole
  2048 × 256 buffer, so what the buffer then reads is the pieces' own function, whatever it held before.
-/
import proofs.«165236_j90744069030056_2_alg».proof.Proof.Trips
import Idealize.ShloMosaic.Lib.Ring

set_option maxRecDepth 8192

noncomputable section

namespace Cert.KernelIdeal.Folds

open Cert.KernelIdeal.Gen Cert.KernelIdeal.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The first loop: no dependence on the value buffer's contents -/

/-- One trip's two piece lists are the same at any two contents of the value buffer. -/
theorem tripL_k0_t1_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (k : Fin k0_t1_loop.trips) (f_arg8 : BufTy.Contents (Elt F) arg8.view.ty) (f_arg9 f_arg9' : BufTy.Contents (Elt F) arg9.view.ty) :
    tripL_k0_t1 (F := F) 𝒱 c bd i arg1 harg1 arg2 harg2 arg3 harg3 arg4 harg4 arg5 harg5 arg6 harg6 arg7 harg7 arg8 harg8 arg9 harg9 v0 v2 v4 X_arg1 X_arg2 k f_arg8 f_arg9
      = tripL_k0_t1 (F := F) 𝒱 c bd i arg1 harg1 arg2 harg2 arg3 harg3 arg4 harg4 arg5 harg5 arg6 harg6 arg7 harg7 arg8 harg8 arg9 harg9 v0 v2 v4 X_arg1 X_arg2 k f_arg8 f_arg9' :=
  Prod.ext
    ((trip_k0_t1_pieces_acc 𝒱 c bd i arg1 harg1 arg2 harg2 arg3 harg3 arg4 harg4 arg5 harg5 arg6 harg6 arg7 harg7 arg8 harg8 arg9 harg9 v0 v2 v4 X_arg1 X_arg2 k f_arg8 f_arg9).trans
      (trip_k0_t1_pieces_acc 𝒱 c bd i arg1 harg1 arg2 harg2 arg3 harg3 arg4 harg4 arg5 harg5 arg6 harg6 arg7 harg7 arg8 harg8 arg9 harg9 v0 v2 v4 X_arg1 X_arg2 k f_arg8 f_arg9').symm)
    ((trip_k0_t1_pieces_val 𝒱 c bd i arg1 harg1 arg2 harg2 arg3 harg3 arg4 harg4 arg5 harg5 arg6 harg6 arg7 harg7 arg8 harg8 arg9 harg9 v0 v2 v4 X_arg1 X_arg2 k f_arg8 f_arg9).trans
      (trip_k0_t1_pieces_val 𝒱 c bd i arg1 harg1 arg2 harg2 arg3 harg3 arg4 harg4 arg5 harg5 arg6 harg6 arg7 harg7 arg8 harg8 arg9 harg9 v0 v2 v4 X_arg1 X_arg2 k f_arg8 f_arg9').symm)

/-- One step of the accumulation is the same at any two initial contents of the value buffer. -/
theorem pb_k0_t1Step_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 G_arg9' : BufTy.Contents (Elt F) arg9.view.ty) (k : ℕ) (prev : List (View.Piece (Elt F) S256x2048 .f32) × List (View.Piece (Elt F) S2048x256 .bf16)) :
    pb_k0_t1Step (F := F) 𝒱 c bd i arg1 harg1 arg2 harg2 arg3 harg3 arg4 harg4 arg5 harg5 arg6 harg6 arg7 harg7 arg8 harg8 arg9 harg9 v0 v2 v4 X_arg1 X_arg2 G_arg8 G_arg9 k prev
      = pb_k0_t1Step (F := F) 𝒱 c bd i arg1 harg1 arg2 harg2 arg3 harg3 arg4 harg4 arg5 harg5 arg6 harg6 arg7 harg7 arg8 harg8 arg9 harg9 v0 v2 v4 X_arg1 X_arg2 G_arg8 G_arg9' k prev := by
  unfold pb_k0_t1Step
  by_cases h : k < k0_t1_loop.trips
  · rw [dif_pos h, dif_pos h,
      tripL_k0_t1_indep 𝒱 c bd i arg1 harg1 arg2 harg2 arg3 harg3 arg4 harg4 arg5 harg5 arg6 harg6 arg7 harg7 arg8 harg8 arg9 harg9 v0 v2 v4 X_arg1 X_arg2 ⟨k, h⟩ _ (arg9.view.writes (Elt F) G_arg9 prev.2) (arg9.view.writes (Elt F) G_arg9' prev.2)]
  · rw [dif_neg h, dif_neg h]

/-- The pieces of the first `k` trips are the same at any two initial contents of the value buffer. -/
theorem pb_k0_t1_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 G_arg9' : BufTy.Contents (Elt F) arg9.view.ty) (k : ℕ) :
    pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 k
      = pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9' k := by
  induction k with
  | zero => rfl
  | succ k ih =>
    rw [pb_k0_t1.eq_2, pb_k0_t1.eq_2, ih]
    exact pb_k0_t1Step_indep 𝒱 c bd i arg1 harg1 arg2 harg2 arg3 harg3 arg4 harg4 arg5 harg5 arg6 harg6 arg7 harg7 arg8 harg8 arg9 harg9 v0 v2 v4 X_arg1 X_arg2 G_arg8 G_arg9 G_arg9' k _

/-! ## The second loop: dependence on the value buffer only through its whole load -/

/-- One step of the second accumulation, at two contents of the value buffer that the whole load reads alike. -/
theorem pb_k0_t2Step_congr (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 X_arg9' : BufTy.Contents (Elt F) arg9.view.ty)
    (h : arg9.view.readAt (Elt F) (Rect.unit (s := S2048x256) ![0, 0] S2048x256.size inb_S2048x256_S2048x256_0_0).toLoadRect X_arg9 = arg9.view.readAt (Elt F) (Rect.unit (s := S2048x256) ![0, 0] S2048x256.size inb_S2048x256_S2048x256_0_0).toLoadRect X_arg9')
    (k : ℕ) (prev : List (View.Piece (Elt F) S1x2048x256 .f32)) :
    pb_k0_t2Step (F := F) 𝒱 c bd i arg1 harg1 arg2 harg2 arg3 harg3 arg4 harg4 arg5 harg5 arg6 harg6 arg7 harg7 arg8 harg8 arg9 harg9 v6 v13 X_arg1 X_arg9 k prev
      = pb_k0_t2Step (F := F) 𝒱 c bd i arg1 harg1 arg2 harg2 arg3 harg3 arg4 harg4 arg5 harg5 arg6 harg6 arg7 harg7 arg8 harg8 arg9 harg9 v6 v13 X_arg1 X_arg9' k prev := by
  unfold pb_k0_t2Step
  by_cases hk : k < k0_t2_loop.trips
  · rw [dif_pos hk, dif_pos hk]
    show (trip_k0_t2 (F := F) 𝒱 c bd i arg1 harg1 arg2 harg2 arg3 harg3 arg4 harg4 arg5 harg5 arg6 harg6 arg7 harg7 arg8 harg8 arg9 harg9 v6 v13 X_arg1 X_arg9 ⟨k, hk⟩).1 ++ prev
      = (trip_k0_t2 (F := F) 𝒱 c bd i arg1 harg1 arg2 harg2 arg3 harg3 arg4 harg4 arg5 harg5 arg6 harg6 arg7 harg7 arg8 harg8 arg9 harg9 v6 v13 X_arg1 X_arg9' ⟨k, hk⟩).1 ++ prev
    rw [trip_k0_t2_pieces, trip_k0_t2_pieces, h]
  · rw [dif_neg hk, dif_neg hk]

/-- The pieces of the first `k` trips of the second loop, at two contents of the value buffer that the whole load
    reads alike. -/
theorem pb_k0_t2_congr (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (X_arg1 : BufTy.Contents (Elt F) arg1.view.ty) (X_arg9 X_arg9' : BufTy.Contents (Elt F) arg9.view.ty)
    (h : arg9.view.readAt (Elt F) (Rect.unit (s := S2048x256) ![0, 0] S2048x256.size inb_S2048x256_S2048x256_0_0).toLoadRect X_arg9 = arg9.view.readAt (Elt F) (Rect.unit (s := S2048x256) ![0, 0] S2048x256.size inb_S2048x256_S2048x256_0_0).toLoadRect X_arg9')
    (k : ℕ) :
    pb_k0_t2 (F := F) 𝒱 c bd i arg1 harg1 arg2 harg2 arg3 harg3 arg4 harg4 arg5 harg5 arg6 harg6 arg7 harg7 arg8 harg8 arg9 harg9 v6 v13 X_arg1 X_arg9 k = pb_k0_t2 (F := F) 𝒱 c bd i arg1 harg1 arg2 harg2 arg3 harg3 arg4 harg4 arg5 harg5 arg6 harg6 arg7 harg7 arg8 harg8 arg9 harg9 v6 v13 X_arg1 X_arg9' k := by
  induction k with
  | zero => rfl
  | succ k ih =>
    rw [pb_k0_t2.eq_2, pb_k0_t2.eq_2, ih]
    exact pb_k0_t2Step_congr 𝒱 c bd i arg1 harg1 arg2 harg2 arg3 harg3 arg4 harg4 arg5 harg5 arg6 harg6 arg7 harg7 arg8 harg8 arg9 harg9 v6 v13 X_arg1 X_arg9 X_arg9' h k _

/-! ## After the first loop the value pieces tile the value buffer -/

/-- The four value pieces (512 rows each, at rows 0, 512, 1024, 1536) cover every index of the 2048 × 256 buffer. -/
theorem cover_val (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (y : S2048x256.Idx) :
    ∃ p ∈ (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2, y ∈ p.1.set :=
  View.cover_of_tiledL (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2 S512x256.size (by sl_kernel_rfl) y

/-- So what the value buffer reads after the first loop is the pieces' own function, whatever it held before. -/
theorem read_val_eq_canon (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (f : BufTy.Contents (Elt F) arg9.view.ty) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2) = View.canon (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2 :=
  View.read_writes_eq_canon arg9.view f _ (cover_val 𝒱 c bd i arg1 harg1 arg2 harg2 arg3 harg3 arg4 harg4 arg5 harg5 arg6 harg6 arg7 harg7 arg8 harg8 arg9 harg9 v0 v2 v4 X_arg1 X_arg2 G_arg8 G_arg9)

/-- The whole load of the value buffer after the first loop reads the same at any two prior contents. -/
theorem readAt_val_indep (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (X_arg1 : BufTy.Contents (Elt F) arg1.view.ty) (X_arg2 : BufTy.Contents (Elt F) arg2.view.ty) (G_arg8 : BufTy.Contents (Elt F) arg8.view.ty) (G_arg9 : BufTy.Contents (Elt F) arg9.view.ty) (f f' : BufTy.Contents (Elt F) arg9.view.ty) :
    arg9.view.readAt (Elt F) (Rect.unit (s := S2048x256) ![0, 0] S2048x256.size inb_S2048x256_S2048x256_0_0).toLoadRect (arg9.view.writes (Elt F) f (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2)
      = arg9.view.readAt (Elt F) (Rect.unit (s := S2048x256) ![0, 0] S2048x256.size inb_S2048x256_S2048x256_0_0).toLoadRect (arg9.view.writes (Elt F) f' (pb_k0_t1 (F := F) 𝒱 c bd i arg1 harg1 arg2 harg2 arg3 harg3 arg4 harg4 arg5 harg5 arg6 harg6 arg7 harg7 arg8 harg8 arg9 harg9 v0 v2 v4 X_arg1 X_arg2 G_arg8 G_arg9 (Scf.trips k0_t1_loop.lb k0_t1_loop.ub k0_t1_loop.st)).2) := by
  rw [View.readAt_eq_ld, View.readAt_eq_ld, read_val_eq_canon, read_val_eq_canon]

end Cert.KernelIdeal.Folds

end
-- ==== Proof.LoopValues.lean ====
/-
  What the kernel's two counted loops leave, for memrefs held at the contents that read given arrays.

  The accumulator: it starts as the zero payload, and each trip replaces it by the trip's payload of the run's rows
  of the two activation arrays and of what it held — a fold over the trips, `accFold`.  The value buffer's pieces
  and the output's pieces: each is the store of one trip, at that trip's rows, of that trip's payload.  And a whole
  load of a whole memref held at the contents that read `x` reads `x`.
-/
import proofs.«165236_j90744069030056_2_alg».proof.Proof.LoopFolds

set_option maxRecDepth 8192

noncomputable section

namespace Cert.KernelIdeal.LoopValues

open Cert.KernelIdeal.Gen Cert.KernelIdeal.Trips Cert.KernelIdeal.Folds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Whole loads and whole stores -/

/-- A whole load of a whole memref held at the contents that read `x` reads `x`. -/
theorem readAt_whole_unread {S : Shape} {e : EltTy} (m : Memref sig .tc .vmem S e) (hm : m.IsWhole)
    {off : Fin S.rank → ℕ} (h0 : off = fun _ => 0) (inb : ∀ a, off a + S.size a ≤ S.size a) (x : S.Idx → Elt F e) :
    m.view.readAt (Elt F) (Rect.unit (s := S) off S.size inb).toLoadRect (hm.unread x) = x := by
  rw [View.readAt_eq_ld, hm.read_unread, View.ld_unit_zero h0]

/-- The pair `![0, 0]` is the zero offset. -/
theorem off2_zero : (![0, 0] : Fin 2 → ℕ) = fun _ => 0 :=
  funext fun a => by match a with | ⟨0, _⟩ => rfl | ⟨1, _⟩ => rfl

theorem readAt_arg3 (arg3 : Memref sig .tc .vmem S256x256 .bf16) (harg3 : arg3.IsWhole) (x2 : S256x256.Idx → Elt F .bf16) :
    View.readAt (Elt F) arg3.view (Rect.unit (s := S256x256) ![0, 0] S256x256.size inb_S256x256_S256x256_0_0).toLoadRect (harg3.unread x2) = x2 :=
  readAt_whole_unread arg3 harg3 off2_zero _ x2

theorem readAt_arg4 (arg4 : Memref sig .tc .vmem S256x2048 .bf16) (harg4 : arg4.IsWhole) (x3 : S256x2048.Idx → Elt F .bf16) :
    View.readAt (Elt F) arg4.view (Rect.unit (s := S256x2048) ![0, 0] S256x2048.size inb_S256x2048_S256x2048_0_0).toLoadRect (harg4.unread x3) = x3 :=
  readAt_whole_unread arg4 harg4 off2_zero _ x3

theorem readAt_arg5 (arg5 : Memref sig .tc .vmem S256x256 .bf16) (harg5 : arg5.IsWhole) (x4 : S256x256.Idx → Elt F .bf16) :
    View.readAt (Elt F) arg5.view (Rect.unit (s := S256x256) ![0, 0] S256x256.size inb_S256x256_S256x256_0_0).toLoadRect (harg5.unread x4) = x4 :=
  readAt_whole_unread arg5 harg5 off2_zero _ x4

theorem readAt_arg6 (arg6 : Memref sig .tc .vmem S256x256 .bf16) (harg6 : arg6.IsWhole) (x5 : S256x256.Idx → Elt F .bf16) :
    View.readAt (Elt F) arg6.view (Rect.unit (s := S256x256) ![0, 0] S256x256.size inb_S256x256_S256x256_0_0).toLoadRect (harg6.unread x5) = x5 :=
  readAt_whole_unread arg6 harg6 off2_zero _ x5

/-- A store over the whole shape, made last, is what the buffer then reads, whatever was stored before. -/
theorem read_writes_cons_whole {S : Shape} {e : EltTy} {sg : RefSig} {κ : Kind} {sp : Space} (v : View sg κ sp S e)
    (f : v.ty.Contents (Elt F)) {off : Fin S.rank → ℕ} (h0 : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h0 inb y⟩),
    View.canon_cons_unit_zero h0 inb w L]

/-! ## The accumulator -/

/-- The accumulator after `k` trips: the zero payload, then each trip's payload of what it held. -/
def accFold (v0 : Vec F S256x256 .bf16) (v2 : Vec F S256x2048 .bf16) (x0 x1 : S1x2048x256.Idx → Elt F .f32) : ℕ → Vec F S256x2048 .f32
  | 0 => k0_pay1
  | k + 1 =>
    if h : k < k0_t1_loop.trips then
      k0_pay4 v0 v2 (View.ld x0 (Rect.unit (s := S1x2048x256) (k0_off1 ⟨k, h⟩) S1x512x256.size (k0_off1_inb ⟨k, h⟩))) (View.ld x1 (Rect.unit (s := S1x2048x256) (k0_off1 ⟨k, h⟩) S1x512x256.size (k0_off1_inb ⟨k, h⟩))) (accFold v0 v2 x0 x1 k)
    else accFold v0 v2 x0 x1 k

/-- After `k` trips, from the accumulator holding the zero payload, the accumulator reads `accFold k`. -/
theorem read_acc (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x0 x1 : S1x2048x256.Idx → Elt F .f32) (f : BufTy.Contents (Elt F) arg8.view.ty) (G_arg9 : BufTy.Contents (Elt F) arg9.view.ty) (k : ℕ) :
    arg8.view.read (Elt F) (arg8.view.writes (Elt F) (arg8.view.writes (Elt F) f [(⟨(Rect.unit (s := S256x2048) ![0, 0] S256x2048.size inb_S256x2048_S256x2048_0_0), k0_pay1⟩ : View.Piece (Elt F) S256x2048 .f32)])
        (pb_k0_t1 (F := F) 𝒱 c bd i arg1 harg1 arg2 harg2 arg3 harg3 arg4 harg4 arg5 harg5 arg6 harg6 arg7 harg7 arg8 harg8 arg9 harg9 v0 v2 v4 (harg1.unread x0) (harg2.unread x1) (arg8.view.writes (Elt F) f [(⟨(Rect.unit (s := S256x2048) ![0, 0] S256x2048.size inb_S256x2048_S256x2048_0_0), k0_pay1⟩ : View.Piece (Elt F) S256x2048 .f32)]) G_arg9 k).1)
      = accFold v0 v2 x0 x1 k := by
  induction k with
  | zero =>
    rw [pb_k0_t1.eq_1, accFold.eq_1]
    dsimp only
    rw [View.writes_nil]
    exact read_writes_cons_whole arg8.view f off2_zero _ k0_pay1 []
  | succ k ih =>
    rw [pb_k0_t1.eq_2]
    unfold pb_k0_t1Step
    by_cases h : k < k0_t1_loop.trips
    · rw [dif_pos h]
      dsimp only [tripL_k0_t1]
      rw [trip_k0_t1_pieces_acc_ld, ih, List.singleton_append,
        read_writes_cons_whole arg8.view _ off2_zero, accFold.eq_2, dif_pos h]
    · rw [dif_neg h, ih, accFold.eq_2, dif_neg h]

/-- THE ACCUMULATOR AFTER THE FIRST LOOP, in the run's own spelling: it reads `accFold` at the trip count. -/
theorem readAt_acc (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x0 x1 : S1x2048x256.Idx → Elt F .f32) (G_arg9 : BufTy.Contents (Elt F) arg9.view.ty) :
    arg8.view.readAt (Elt F) (Rect.unit (s := S256x2048) ![0, 0] S256x2048.size inb_S256x2048_S256x2048_0_0).toLoadRect
        (arg8.view.writes (Elt F) arg8.view.junk
          ((pb_k0_t1 (F := F) 𝒱 c bd i arg1 harg1 arg2 harg2 arg3 harg3 arg4 harg4 arg5 harg5 arg6 harg6 arg7 harg7 arg8 harg8 arg9 harg9 v0 v2 v4 (harg1.unread x0) (harg2.unread x1) (arg8.view.writes (Elt F) arg8.view.junk [(⟨(Rect.unit (s := S256x2048) ![0, 0] S256x2048.size inb_S256x2048_S256x2048_0_0), k0_pay1⟩ : View.Piece (Elt F) S256x2048 .f32)]) G_arg9 (Scf.trips k0_t1_loop.lb k0_t1_loop.ub k0_t1_loop.st)).1 ++ [(⟨(Rect.unit (s := S256x2048) ![0, 0] S256x2048.size inb_S256x2048_S256x2048_0_0), k0_pay1⟩ : View.Piece (Elt F) S256x2048 .f32)]))
      = accFold v0 v2 x0 x1 (Scf.trips k0_t1_loop.lb k0_t1_loop.ub k0_t1_loop.st) := by
  rw [View.writes_append, View.readAt_eq_ld, read_acc, View.ld_unit_zero off2_zero]

/-- The first loop makes four trips. -/
theorem trips1_eq : k0_t1_loop.trips = 4 := by decide +kernel

/-- The second loop makes four trips. -/
theorem trips2_eq : k0_t2_loop.trips = 4 := by decide +kernel

/-- The `j`-th of the first loop's four trips. -/
def t1 (j : Fin 4) : Fin k0_t1_loop.trips := ⟨j.val, lt_of_lt_of_eq j.isLt trips1_eq.symm⟩

/-- The `j`-th of the second loop's four trips. -/
def t2 (j : Fin 4) : Fin k0_t2_loop.trips := ⟨j.val, lt_of_lt_of_eq j.isLt trips2_eq.symm⟩

/-- The accumulator after the four trips, written out. -/
theorem accFold_four (v0 : Vec F S256x256 .bf16) (v2 : Vec F S256x2048 .bf16) (x0 x1 : S1x2048x256.Idx → Elt F .f32) :
    accFold v0 v2 x0 x1 (Scf.trips k0_t1_loop.lb k0_t1_loop.ub k0_t1_loop.st)
      = k0_pay4 v0 v2 (View.ld x0 (Rect.unit (s := S1x2048x256) (k0_off1 (t1 3)) S1x512x256.size (k0_off1_inb (t1 3)))) (View.ld x1 (Rect.unit (s := S1x2048x256) (k0_off1 (t1 3)) S1x512x256.size (k0_off1_inb (t1 3))))
          (k0_pay4 v0 v2 (View.ld x0 (Rect.unit (s := S1x2048x256) (k0_off1 (t1 2)) S1x512x256.size (k0_off1_inb (t1 2)))) (View.ld x1 (Rect.unit (s := S1x2048x256) (k0_off1 (t1 2)) S1x512x256.size (k0_off1_inb (t1 2))))
            (k0_pay4 v0 v2 (View.ld x0 (Rect.unit (s := S1x2048x256) (k0_off1 (t1 1)) S1x512x256.size (k0_off1_inb (t1 1)))) (View.ld x1 (Rect.unit (s := S1x2048x256) (k0_off1 (t1 1)) S1x512x256.size (k0_off1_inb (t1 1))))
              (k0_pay4 v0 v2 (View.ld x0 (Rect.unit (s := S1x2048x256) (k0_off1 (t1 0)) S1x512x256.size (k0_off1_inb (t1 0)))) (View.ld x1 (Rect.unit (s := S1x2048x256) (k0_off1 (t1 0)) S1x512x256.size (k0_off1_inb (t1 0)))) k0_pay1))) := by
  have h0 : (0 : ℕ) < k0_t1_loop.trips := (t1 0).isLt
  have h1 : (1 : ℕ) < k0_t1_loop.trips := (t1 1).isLt
  have h2 : (2 : ℕ) < k0_t1_loop.trips := (t1 2).isLt
  have h3 : (3 : ℕ) < k0_t1_loop.trips := (t1 3).isLt
  show accFold v0 v2 x0 x1 k0_t1_loop.trips = _
  rw [trips1_eq]
  show accFold v0 v2 x0 x1 (3 + 1) = _
  rw [accFold.eq_2, dif_pos h3, accFold.eq_2, dif_pos h2, accFold.eq_2, dif_pos h1, accFold.eq_2, dif_pos h0,
    accFold.eq_1]
  rfl

/-! ## The value buffer's pieces and the output's pieces -/

/-- Every value piece of the first `k` trips is the store of one trip, at that trip's rows, of the value projection of
    the trip's rows of the first activation array. -/
theorem mem_val_pieces (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v0 : Vec F S256x256 .bf16) (v2 : Vec F S256x2048 .bf16) (v4 : Vec F S256x256 .bf16) (x0 x1 : S1x2048x256.Idx → Elt F .f32) (G_arg8 : BufTy.Contents (Elt F) arg8.view.ty) (G_arg9 : BufTy.Contents (Elt F) arg9.view.ty) (k : ℕ)
    (p : View.Piece (Elt F) S2048x256 .bf16) (hp : p ∈ (pb_k0_t1 (F := F) 𝒱 c bd i arg1 harg1 arg2 harg2 arg3 harg3 arg4 harg4 arg5 harg5 arg6 harg6 arg7 harg7 arg8 harg8 arg9 harg9 v0 v2 v4 (harg1.unread x0) (harg2.unread x1) G_arg8 G_arg9 k).2) :
    ∃ j : Fin k0_t1_loop.trips, p = ⟨Rect.unit (s := S2048x256) (k0_off2 j) S512x256.size (k0_off2_inb j),
      k0_pay3 v4 (View.ld x0 (Rect.unit (s := S1x2048x256) (k0_off1 j) S1x512x256.size (k0_off1_inb j)))⟩ := by
  induction k with
  | zero => exact absurd hp List.not_mem_nil
  | succ k ih =>
    rw [pb_k0_t1.eq_2] at hp
    unfold pb_k0_t1Step at hp
    by_cases h : k < k0_t1_loop.trips
    · rw [dif_pos h] at hp
      replace hp : p ∈ (trip_k0_t1 (F := F) 𝒱 c bd i arg1 harg1 arg2 harg2 arg3 harg3 arg4 harg4 arg5 harg5 arg6 harg6 arg7 harg7 arg8 harg8 arg9 harg9 v0 v2 v4 (harg1.unread x0) (harg2.unread x1) ⟨k, h⟩).2.1 _ _
          ++ (pb_k0_t1 (F := F) 𝒱 c bd i arg1 harg1 arg2 harg2 arg3 harg3 arg4 harg4 arg5 harg5 arg6 harg6 arg7 harg7 arg8 harg8 arg9 harg9 v0 v2 v4 (harg1.unread x0) (harg2.unread x1) G_arg8 G_arg9 k).2 := hp
      rw [trip_k0_t1_pieces_val_ld, List.singleton_append] at hp
      rcases List.mem_cons.mp hp with rfl | hp'
      · exact ⟨⟨k, h⟩, rfl⟩
      · exact ih hp'
    · rw [dif_neg h] at hp
      exact ih hp

/-- Every output piece of the first `k` trips of the second loop is the store of one trip, at that trip's rows, of the
    attention payload of the trip's rows of the first activation array and of what the value buffer's whole load reads. -/
theorem mem_out_pieces (𝒱 : Variants) (c : Dev nD) (bd : Option 𝒱.V) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (v6 : Vec F S256x256 .bf16) (v13 : Vec F S256x2048 .f32) (x0 : S1x2048x256.Idx → Elt F .f32) (X_arg9 : BufTy.Contents (Elt F) arg9.view.ty) (k : ℕ)
    (p : View.Piece (Elt F) S1x2048x256 .f32) (hp : p ∈ pb_k0_t2 (F := F) 𝒱 c bd i arg1 harg1 arg2 harg2 arg3 harg3 arg4 harg4 arg5 harg5 arg6 harg6 arg7 harg7 arg8 harg8 arg9 harg9 v6 v13 (harg1.unread x0) X_arg9 k) :
    ∃ j : Fin k0_t2_loop.trips, p = ⟨(Rect.unit (s := S1x2048x256) (k0_off3 j) S1x512x256.size (k0_off3_inb j)),
      k0_pay5 v6 v13 (View.ld x0 (Rect.unit (s := S1x2048x256) (k0_off3 j) S1x512x256.size (k0_off3_inb j))) (arg9.view.readAt (Elt F) (Rect.unit (s := S2048x256) ![0, 0] S2048x256.size inb_S2048x256_S2048x256_0_0).toLoadRect X_arg9)⟩ := by
  induction k with
  | zero => exact absurd hp List.not_mem_nil
  | succ k ih =>
    rw [pb_k0_t2.eq_2] at hp
    unfold pb_k0_t2Step at hp
    by_cases h : k < k0_t2_loop.trips
    · rw [dif_pos h] at hp
      replace hp : p ∈ (trip_k0_t2 (F := F) 𝒱 c bd i arg1 harg1 arg2 harg2 arg3 harg3 arg4 harg4 arg5 harg5 arg6 harg6 arg7 harg7 arg8 harg8 arg9 harg9 v6 v13 (harg1.unread x0) X_arg9 ⟨k, h⟩).1
          ++ pb_k0_t2 (F := F) 𝒱 c bd i arg1 harg1 arg2 harg2 arg3 harg3 arg4 harg4 arg5 harg5 arg6 harg6 arg7 harg7 arg8 harg8 arg9 harg9 v6 v13 (harg1.unread x0) X_arg9 k := hp
      rw [trip_k0_t2_pieces, View.readAt_eq_ld, harg1.read_unread, List.singleton_append] at hp
      rcases List.mem_cons.mp hp with rfl | hp'
      · exact ⟨⟨k, h⟩, rfl⟩
      · exact ih hp'
    · rw [dif_neg h] at hp
      exact ih hp

end Cert.KernelIdeal.LoopValues

end
-- ==== Proof.LibKeepdims.lean ====
/-
  Two layout reads that every row reduction with kept dimensions meets, at any sizes:
  a vector of length a viewed as an a × 1 column, and an a × 1 column repeated along rows of length b.
  Both only rename entries: the column's entry (p, 0) is the vector's entry p, and the broadcast's entry (p, k) is
  the column's entry (p, 0), whatever k.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A length-`a` vector reshaped to an `a × 1` column: entry (p, 0) of the column is entry p of the vector
    (both sit at row-major position p). -/
theorem shapeCast_column_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An `a × 1` column broadcast along rows of length `b`: entry (p, k) of the result is entry (p, 0) of the
    column (when a = 1 the only row is row 0, so the rule "a unit axis reads 0" and the rule "a kept axis reads
    its own coordinate" agree). -/
theorem broadcastTo_column_apply {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun c => ?_
  match c with
  | ⟨0, _⟩ =>
    show p.val = if a = 1 then 0 else p.val
    split
    · have := p.isLt; omega
    · rfl
  | ⟨1, _⟩ => show 0 = if (1 : Nat) = 1 then 0 else k.val; rw [if_pos rfl]

end Cert.Lib.Keepdims

end
-- ==== Proof.Spec.lean ====
/-
  The two programs' results as functions of the six argument arrays, index by index, over the extended reals.

  Per batch `b` the reference computes the projections `q = x·W_qᵀ`, `k = x·W_kᵀ`, `v = x·W_vᵀ` of the first
  activation array and `a = y·W_aᵀ` of the second, the scores `((q·kᵀ)·a) / √256`, a softmax along each row of the
  scores, and the product of the softmax with `v`.  The kernel computes the same projections, but contracts
  `M = kᵀ·a` first — the 2048 positions in four runs of 512, summed left to right from zero —, takes the
  scores as `(q·M + q·(M − M)) · 0.0625`, and then the same softmax and product with `v`.

  `refOut` and `kerOut` below spell exactly these two results; the softmax-weighted sum (`attend`) is one
  definition shared by both, so that only the scores differ.
-/
import Idealize.ShloMosaic.PureOps.Ideal
import Idealize.ShloMosaic.Lib.ValueIdx

noncomputable section

namespace Cert.Spec

open Idealize.ShloMosaic Idealize.ShloMosaic.ValueIdx

/-- An activation array `[16, 2048, 256]`, a square weight `[256, 256]` and the wide weight `[2048, 256]`. -/
abbrev Act := (⟨3, ![16, 2048, 256]⟩ : Shape).Idx → EReal
abbrev Sq := (⟨2, ![256, 256]⟩ : Shape).Idx → EReal
abbrev Wide := (⟨2, ![2048, 256]⟩ : Shape).Idx → EReal

/-- `(x·Wᵀ)[b, s, o] = ∑ₑ x[b, s, e] · W[o, e]`. -/
def proj (x : Act) (w : Sq) (b : Fin 16) (s : Fin 2048) (o : Fin 256) : EReal :=
  ∑ e : Fin 256, x (ix3 b s e) * w (ix2 o e)

/-- `(y·W_aᵀ)[b, t, d] = ∑ₑ y[b, t, e] · W_a[d, e]`. -/
def projWide (y : Act) (w : Wide) (b : Fin 16) (t : Fin 2048) (d : Fin 2048) : EReal :=
  ∑ e : Fin 256, y (ix3 b t e) * w (ix2 d e)

/-- The value the float pattern of `-∞` denotes (the start of a row maximum). -/
def negInf : EReal := Ideal.ofBits .f32 0xFF800000#32

/-- The maximum of a row of scores, folded from `-∞`. -/
def rowMax (sc : Fin 2048 → EReal) : EReal := Finset.univ.fold max negInf sc

/-- Entry `d` of the softmax of a row: `exp (sc d − max) / ∑ exp (sc d' − max)`. -/
def soft (sc : Fin 2048 → EReal) (d : Fin 2048) : EReal :=
  Ideal.div (Ideal.exp (sc d - rowMax sc)) (∑ d' : Fin 2048, Ideal.exp (sc d' - rowMax sc))

/-- The softmax of a row of scores against a column of values. -/
def attend (sc v : Fin 2048 → EReal) : EReal := ∑ d : Fin 2048, soft sc d * v d

/-- The reference's scaled score: `(∑ₜ (∑ₑ q[s,e]·k[t,e]) · a[t,d]) / √256`. -/
def refScore (x y : Act) (wk wq : Sq) (wa : Wide) (b : Fin 16) (s d : Fin 2048) : EReal :=
  Ideal.div (∑ t : Fin 2048, (∑ e : Fin 256, proj x wq b s e * proj x wk b t e) * projWide y wa b t d)
    (Ideal.sqrt (Ideal.ofBits .f32 0x43800000#32))

/-- Position `r` of the `k`-th run of 512 positions. -/
def pos (k : Fin 4) (r : Fin 512) : Fin 2048 := ⟨512 * k.val + r.val, by omega⟩

/-- The contribution of the `k`-th run of 512 positions to `M = kᵀ·a`. -/
def tile (x y : Act) (wk : Sq) (wa : Wide) (b : Fin 16) (k : Fin 4) (e : Fin 256) (d : Fin 2048) : EReal :=
  ∑ r : Fin 512, proj x wk b (pos k r) e * projWide y wa b (pos k r) d

/-- `M[e, d]` as the kernel accumulates it: from zero, one run after the other. -/
def accM (x y : Act) (wk : Sq) (wa : Wide) (b : Fin 16) (e : Fin 256) (d : Fin 2048) : EReal :=
  (((0 + tile x y wk wa b 0 e d) + tile x y wk wa b 1 e d) + tile x y wk wa b 2 e d) + tile x y wk wa b 3 e d

/-- The kernel's scaled score: `(∑ₑ q[s,e]·M[e,d] + ∑ₑ q[s,e]·(M[e,d] − M[e,d])) · 0.0625`. -/
def kerScore (x y : Act) (wk wq : Sq) (wa : Wide) (b : Fin 16) (s d : Fin 2048) : EReal :=
  ((∑ e : Fin 256, proj x wq b s e * accM x y wk wa b e d)
    + (∑ e : Fin 256, proj x wq b s e * (accM x y wk wa b e d - accM x y wk wa b e d)))
    * Ideal.ofBits .f32 0x3D800000#32

/-- The reference's result at `(b, s, o)`. -/
def refAt (x y : Act) (wv wk wq : Sq) (wa : Wide) (b : Fin 16) (s : Fin 2048) (o : Fin 256) : EReal :=
  attend (fun d => refScore x y wk wq wa b s d) (fun d => proj x wv b d o)

/-- The kernel's result at `(b, s, o)`. -/
def kerAt (x y : Act) (wv wk wq : Sq) (wa : Wide) (b : Fin 16) (s : Fin 2048) (o : Fin 256) : EReal :=
  attend (fun d => kerScore x y wk wq wa b s d) (fun d => proj x wv b d o)

/-- The reference's result array. -/
def refOut (x y : Act) (wv wk wq : Sq) (wa : Wide) : Act :=
  fun i => refAt x y wv wk wq wa ⟨(i 0).val, (i 0).isLt⟩ ⟨(i 1).val, (i 1).isLt⟩ ⟨(i 2).val, (i 2).isLt⟩

/-- The kernel's result array. -/
def kerOut (x y : Act) (wv wk wq : Sq) (wa : Wide) : Act :=
  fun i => kerAt x y wv wk wq wa ⟨(i 0).val, (i 0).isLt⟩ ⟨(i 1).val, (i 1).isLt⟩ ⟨(i 2).val, (i 2).isLt⟩

end Cert.Spec

end
-- ==== Proof.Payload.lean ====
/-
  The kernel body's arithmetic read at an index, over the extended reals.

  Each of the body's four matrix products, into a zero accumulator, is the plain sum over its contracted
  coordinate; a change of float format is the identity; the leading unit axis of a block and the kept
  dimension of a row reduction only rename entries.  With these, the three stored values are:
  the tile of `v = x·W_vᵀ` (a 512 × 256 product), the accumulator `M + kᵀ·a` over one run of 512 positions,
  and, for a run of 512 query rows, the softmax of `(q·M + q·(M − M))·0.0625` along each row against `v`.
-/
import proofs.«165236_j90744069030056_2_alg».proof.Proof.Gen.KernelIdeal.Skeleton
import proofs.«165236_j90744069030056_2_alg».proof.Proof.LibKeepdims
import proofs.«165236_j90744069030056_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

theorem mm_rows_sq_lf (i : S512x256.Idx) (c : dot_S512x256_S256x256_S512x256_1_0_0_1_n_n.contr.Idx) : (dot_S512x256_S256x256_S512x256_1_0_0_1_n_n.lhsIdx i c 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mm_rows_sq_lc (i : S512x256.Idx) (c : dot_S512x256_S256x256_S512x256_1_0_0_1_n_n.contr.Idx) : (dot_S512x256_S256x256_S512x256_1_0_0_1_n_n.lhsIdx i c 1).val = (c ⟨0, by decide⟩).val :=
  dot_S512x256_S256x256_S512x256_1_0_0_1_n_n.lhsIdx_val_of_single rfl i c
theorem mm_rows_sq_rf (i : S512x256.Idx) (c : dot_S512x256_S256x256_S512x256_1_0_0_1_n_n.contr.Idx) : (dot_S512x256_S256x256_S512x256_1_0_0_1_n_n.rhsIdx i c 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
theorem mm_rows_sq_rc (i : S512x256.Idx) (c : dot_S512x256_S256x256_S512x256_1_0_0_1_n_n.contr.Idx) : (dot_S512x256_S256x256_S512x256_1_0_0_1_n_n.rhsIdx i c 0).val = (c ⟨0, by decide⟩).val :=
  dot_S512x256_S256x256_S512x256_1_0_0_1_n_n.rhsIdx_val_of_single rfl i c

/-- A 512 × 256 block against a 256 × 256 matrix: entry (p, q) is the sum over the shared coordinate. -/
theorem mm_rows_sq (l : FVec Ideal S512x256 .bf16) (r : FVec Ideal S256x256 .bf16) (p : Fin 512) (q : Fin 256) :
    matmul dot_S512x256_S256x256_S512x256_1_0_0_1_n_n none l r (constant S512x256 .f32 0x00000000#32) (ix2 p q)
      = ∑ k : Fin 256, l (ix2 p k) * r (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact mm_rows_sq_lf _ _
    | ⟨1, _⟩ => exact (mm_rows_sq_lc _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨1, _⟩ => exact mm_rows_sq_rf _ _
    | ⟨0, _⟩ => exact (mm_rows_sq_rc _ _).trans hk)
  rw [el, er]

theorem mm_rows_wide_lf (i : S512x2048.Idx) (c : dot_S512x256_S256x2048_S512x2048_1_0_0_1_n_n.contr.Idx) : (dot_S512x256_S256x2048_S512x2048_1_0_0_1_n_n.lhsIdx i c 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem mm_rows_wide_lc (i : S512x2048.Idx) (c : dot_S512x256_S256x2048_S512x2048_1_0_0_1_n_n.contr.Idx) : (dot_S512x256_S256x2048_S512x2048_1_0_0_1_n_n.lhsIdx i c 1).val = (c ⟨0, by decide⟩).val :=
  dot_S512x256_S256x2048_S512x2048_1_0_0_1_n_n.lhsIdx_val_of_single rfl i c
theorem mm_rows_wide_rf (i : S512x2048.Idx) (c : dot_S512x256_S256x2048_S512x2048_1_0_0_1_n_n.contr.Idx) : (dot_S512x256_S256x2048_S512x2048_1_0_0_1_n_n.rhsIdx i c 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl
theorem mm_rows_wide_rc (i : S512x2048.Idx) (c : dot_S512x256_S256x2048_S512x2048_1_0_0_1_n_n.contr.Idx) : (dot_S512x256_S256x2048_S512x2048_1_0_0_1_n_n.rhsIdx i c 0).val = (c ⟨0, by decide⟩).val :=
  dot_S512x256_S256x2048_S512x2048_1_0_0_1_n_n.rhsIdx_val_of_single rfl i c

/-- A 512 × 256 block against a 256 × 2048 matrix. -/
theorem mm_rows_wide (l : FVec Ideal S512x256 .bf16) (r : FVec Ideal S256x2048 .bf16) (p : Fin 512) (q : Fin 2048) :
    matmul dot_S512x256_S256x2048_S512x2048_1_0_0_1_n_n none l r (constant S512x2048 .f32 0x00000000#32) (ix2 p q)
      = ∑ k : Fin 256, l (ix2 p k) * r (ix2 k q) := by
  simp only [matmul]
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p q) ((contrEquiv1 dot_S512x256_S256x2048_S512x2048_1_0_0_1_n_n 256 rfl rfl).symm k) = ix2 p k := funext fun a => Fin.ext (by
    match a with
    | ⟨0, _⟩ => exact mm_rows_wide_lf _ _
    | ⟨1, _⟩ => exact (mm_rows_wide_lc _ _).trans hk)
  have er : dot_S512x256_S256x2048_S512x2048_1_0_0_1_n_n.rhsIdx (ix2 p q) ((contrEquiv1 dot_S512x256_S256x2048_S512x2048_1_0_0_1_n_n 256 rfl rfl).symm k) = ix2 k q := funext fun a => Fin.ext (by
    match a with
    | ⟨1, _⟩ => exact mm_rows_wide_rf _ _
    | ⟨0, _⟩ => exact (mm_rows_wide_rc _ _).trans hk)
  rw [el, er]

theorem mm_cols_lf (i : S256x2048.Idx) (c : dot_S512x256_S512x2048_S256x2048_0_0_1_1_n_n.contr.Idx) : (dot_S512x256_S512x2048_S256x2048_0_0_1_1_n_n.lhsIdx i c 1).val = (i 0).val := by
  unfold DotDims.lhsIdx
  rw [dif_neg (show ¬(1 : Fin S512x256.rank) ∈ dot_S512x256_S512x2048_S256x2048_0_0_1_1_n_n.lhsBatch by decide), dif_pos (show (1 : Fin S512x256.rank) ∈ dot_S512x256_S512x2048_S256x2048_0_0_1_1_n_n.lhsNonContracting by decide)]
  rfl
theorem mm_cols_lc (i : S256x2048.Idx) (c : dot_S512x256_S512x2048_S256x2048_0_0_1_1_n_n.contr.Idx) : (dot_S512x256_S512x2048_S256x2048_0_0_1_1_n_n.lhsIdx i c 0).val = (c ⟨0, by decide⟩).val :=
  dot_S512x256_S512x2048_S256x2048_0_0_1_1_n_n.lhsIdx_val_of_single rfl i c
theorem mm_cols_rf (i : S256x2048.Idx) (c : dot_S512x256_S512x2048_S256x2048_0_0_1_1_n_n.contr.Idx) : (dot_S512x256_S512x2048_S256x2048_0_0_1_1_n_n.rhsIdx i c 1).val = (i 1).val := by
  unfold DotDims.rhsIdx
  rw [dif_neg (show ¬(1 : Fin S512x2048.rank) ∈ dot_S512x256_S512x2048_S256x2048_0_0_1_1_n_n.rhsBatch by decide), dif_pos (show (1 : Fin S512x2048.rank) ∈ dot_S512x256_S512x2048_S256x2048_0_0_1_1_n_n.rhsNonContracting by decide)]
  rfl
theorem mm_cols_rc (i : S256x2048.Idx) (c : dot_S512x256_S512x2048_S256x2048_0_0_1_1_n_n.contr.Idx) : (dot_S512x256_S512x2048_S256x2048_0_0_1_1_n_n.rhsIdx i c 0).val = (c ⟨0, by decide⟩).val :=
  dot_S512x256_S512x2048_S256x2048_0_0_1_1_n_n.rhsIdx_val_of_single rfl i c

/-- The transposed product of a 512 × 256 block with a 512 × 2048 block: entry (p, q) sums over the 512 rows. -/
theorem mm_cols (l : FVec Ideal S512x256 .bf16) (r : FVec Ideal S512x2048 .bf16) (p : Fin 256) (q : Fin 2048) :
    matmul dot_S512x256_S512x2048_S256x2048_0_0_1_1_n_n none l r (constant S256x2048 .f32 0x00000000#32) (ix2 p q)
      = ∑ k : Fin 512, l (ix2 k p) * r (ix2 k q) := by
  simp only [matmul]
  rw [Ideal.matmul_constant_zero_apply, ← Equiv.sum_comp (contrEquiv1 dot_S512x256_S512x2048_S256x2048_0_0_1_1_n_n 512 rfl rfl).symm]
  refine Finset.sum_congr rfl fun k _ => ?_
  have hk := contrEquiv1_symm_val dot_S512x256_S512x2048_S256x2048_0_0_1_1_n_n 512 rfl rfl k
  have el : dot_S512x256_S512x2048_S256x2048_0_0_1_1_n_n.lhsIdx (ix2 p q) ((contrEquiv1 dot_S512x256_S512x2048_S256x2048_0_0_1_1_n_n 512 rfl rfl).symm k) = ix2 k p := funext fun a => Fin.ext (by
    match a with
    | ⟨1, _⟩ => exact mm_cols_lf _ _
    | ⟨0, _⟩ => exact (mm_cols_lc _ _).trans hk)
  have er : dot_S512x256_S512x2048_S256x2048_0_0_1_1_n_n.rhsIdx (ix2 p q) ((contrEquiv1 dot_S512x256_S512x2048_S256x2048_0_0_1_1_n_n 512 rfl rfl).symm k) = ix2 k q := funext fun a => Fin.ext (by
    match a with
    | ⟨1, _⟩ => exact mm_cols_rf _ _
    | ⟨0, _⟩ => exact (mm_cols_rc _ _).trans hk)
  rw [el, er]

theorem mm_attend_lf (i : S512x256.Idx) (c : dot_S512x2048_S2048x256_S512x256_1_0_0_1_n_n.contr.Idx) : (dot_S512x2048_S2048x256_S512x256_1_0_0_1_n_n.lhsIdx i c 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem mm_attend_lc (i : S512x256.Idx) (c : dot_S512x2048_S2048x256_S512x256_1_0_0_1_n_n.contr.Idx) : (dot_S512x2048_S2048x256_S512x256_1_0_0_1_n_n.lhsIdx i c 1).val = (c ⟨0, by decide⟩).val :=
  dot_S512x2048_S2048x256_S512x256_1_0_0_1_n_n.lhsIdx_val_of_single rfl i c
theorem mm_attend_rf (i : S512x256.Idx) (c : dot_S512x2048_S2048x256_S512x256_1_0_0_1_n_n.contr.Idx) : (dot_S512x2048_S2048x256_S512x256_1_0_0_1_n_n.rhsIdx i c 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl
theorem mm_attend_rc (i : S512x256.Idx) (c : dot_S512x2048_S2048x256_S512x256_1_0_0_1_n_n.contr.Idx) : (dot_S512x2048_S2048x256_S512x256_1_0_0_1_n_n.rhsIdx i c 0).val = (c ⟨0, by decide⟩).val :=
  dot_S512x2048_S2048x256_S512x256_1_0_0_1_n_n.rhsIdx_val_of_single rfl i c

/-- A 512 × 2048 block against a 2048 × 256 matrix. -/
theorem mm_attend (l : FVec Ideal S512x2048 .bf16) (r : FVec Ideal S2048x256 .bf16) (p : Fin 512) (q : Fin 256) :
    matmul dot_S512x2048_S2048x256_S512x256_1_0_0_1_n_n none l r (constant S512x256 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p q) ((contrEquiv1 dot_S512x2048_S2048x256_S512x256_1_0_0_1_n_n 2048 rfl rfl).symm k) = ix2 p k := funext fun a => Fin.ext (by
    match a with
    | ⟨0, _⟩ => exact mm_attend_lf _ _
    | ⟨1, _⟩ => exact (mm_attend_lc _ _).trans hk)
  have er : dot_S512x2048_S2048x256_S512x256_1_0_0_1_n_n.rhsIdx (ix2 p q) ((contrEquiv1 dot_S512x2048_S2048x256_S512x256_1_0_0_1_n_n 2048 rfl rfl).symm k) = ix2 k q := funext fun a => Fin.ext (by
    match a with
    | ⟨1, _⟩ => exact mm_attend_rf _ _
    | ⟨0, _⟩ => exact (mm_attend_rc _ _).trans hk)
  rw [el, er]

/-- A source index of the row reduction: row `p` with the reduced coordinate `k` put back. -/
theorem lift_row (p : Fin 512) (k : Fin 2048) :
    (reduces_S512x2048_S512).lift (ix1 p) k = ix2 p k :=
  funext fun a => Fin.ext (by match a with | ⟨0, _⟩ => rfl | ⟨1, _⟩ => rfl)

/-- The row maximum with its kept dimension, repeated along the row: at (p, d) it is the maximum of row p. -/
theorem rowmax_bcast (s : FVec Ideal S512x2048 .f32) (p : Fin 512) (d : Fin 2048) :
    broadcastTo S512x2048 (shapeCast S512x1 (multiReduction .maximumf [1] S512 s 0xFF800000#32 reduces_S512x2048_S512 (.inl rfl) rfl)
      shapeCasts_S512_S512x1) broadcasts_S512x1_S512x2048 (ix2 p d)
      = Cert.Spec.rowMax (fun k => s (ix2 p k)) := by
  refine (Cert.Lib.Keepdims.broadcastTo_column_apply _ _ p d).trans ?_
  refine (Cert.Lib.Keepdims.shapeCast_column_apply _ _ p).trans ?_
  refine (Ideal.multiReduction_maximumf_single s _ _ _ _ (ix1 p)).trans ?_
  unfold Cert.Spec.rowMax Cert.Spec.negInf
  refine congrArg (Finset.univ.fold max _) (funext fun k => ?_)
  exact congrArg s (lift_row p k)

/-- The row sum with its kept dimension, repeated along the row: at (p, d) it is the sum of row p. -/
theorem rowsum_bcast (s : FVec Ideal S512x2048 .f32) (p : Fin 512) (d : Fin 2048) :
    broadcastTo S512x2048 (shapeCast S512x1 (multiReduction .add [1] S512 s 0x00000000#32 reduces_S512x2048_S512 (.inl rfl) rfl)
      shapeCasts_S512_S512x1) broadcasts_S512x1_S512x2048 (ix2 p d)
      = ∑ k : Fin 2048, s (ix2 p k) := by
  refine (Cert.Lib.Keepdims.broadcastTo_column_apply _ _ p d).trans ?_
  refine (Cert.Lib.Keepdims.shapeCast_column_apply _ _ p).trans ?_
  refine (Ideal.multiReduction_add_single s _ _ _ _ (ix1 p)).trans ?_
  refine Finset.sum_congr rfl fun k _ => ?_
  exact congrArg s (lift_row p k)

/-- A 1 × 512 × 256 block viewed as 512 × 256: entry (p, e) is the block's entry (0, p, e). -/
theorem drop_unit (v : FVec Ideal S1x512x256 .f32) (p : Fin 512) (e : Fin 256) :
    shapeCast S512x256 v shapeCasts_S1x512x256_S512x256 (ix2 p e) = v (ix3 (0 : Fin 1) p e) := by
  refine shapeCast_apply v _ (ix2 p e) (ix3 (0 : Fin 1) p e) ?_
  rw [Shape.rowMajor_val_three, Shape.rowMajor_val_two]
  show ((0 : ℕ) * 512 + p.val) * 256 + e.val = p.val * 256 + e.val
  omega

/-- A 512 × 256 value stored as a 1 × 512 × 256 block: the block's entry (0, p, o) is the value's entry (p, o). -/
theorem add_unit (v : FVec Ideal S512x256 .f32) (p : Fin 512) (o : Fin 256) :
    shapeCast S1x512x256 v shapeCasts_S512x256_S1x512x256 (ix3 (0 : Fin 1) p o) = v (ix2 p o) := by
  refine shapeCast_apply v _ (ix3 (0 : Fin 1) p o) (ix2 p o) ?_
  rw [Shape.rowMajor_val_three, Shape.rowMajor_val_two]
  show p.val * 256 + o.val = ((0 : ℕ) * 512 + p.val) * 256 + o.val
  omega

end Cert.KernelIdeal.Pay

end
-- ==== Proof.PayloadRead.lean ====
/-
  The kernel body's stored values at an index.

  The body stores a block of zeros (the start of the accumulator `M`), a 512-row tile of `v = x·W_vᵀ`,
  the accumulator plus one run's contribution `kᵀ·a`, and, for a run of 512 query rows, the softmax of
  `(q·M + q·(M − M))·0.0625` along each row against `v`.  Each is read here entry by entry from the
  operations that compute it: a matrix product into a zero accumulator is the sum over the contracted
  coordinate, a change of float format and a cast to the same shape are the identity, and the unit axis of a
  block and the kept dimension of a row reduction only rename entries.
-/
import proofs.«165236_j90744069030056_2_alg».proof.Proof.Payload

noncomputable section

namespace Cert.KernelIdeal.Pay

open Cert.KernelIdeal Cert.KernelIdeal.Gen Idealize.ShloMosaic Idealize.ShloMosaic.ValueIdx

/-! ## The projections of a block of 512 rows -/

/-- A block of 512 rows of activations against a square weight: entry (p, o) is `∑ₑ block[0, p, e] · W[e, o]`. -/
theorem proj_at (w : FVec Ideal S256x256 .bf16) (v : FVec Ideal S1x512x256 .f32) (p : Fin 512) (o : Fin 256) :
    matmul dot_S512x256_S256x256_S512x256_1_0_0_1_n_n none
        (truncf .bf16 (shapeCast S512x256 v shapeCasts_S1x512x256_S512x256) bitsLt_bf16_f32)
        (shapeCast S256x256 w shapeCasts_S256x256_S256x256) (constant S512x256 .f32 0x00000000#32) (ix2 p o)
      = ∑ e : Fin 256, v (ix3 (0 : Fin 1) p e) * w (ix2 e o) := by
  refine (mm_rows_sq _ _ p o).trans ?_
  refine Finset.sum_congr rfl fun e _ => ?_
  rw [shapeCast_self]
  exact congrArg (· * w (ix2 e o)) (drop_unit v p e)

/-- The same block against the wide weight: entry (p, d) is `∑ₑ block[0, p, e] · W[e, d]`. -/
theorem projWide_at (w : FVec Ideal S256x2048 .bf16) (v : FVec Ideal S1x512x256 .f32) (p : Fin 512) (d : Fin 2048) :
    matmul dot_S512x256_S256x2048_S512x2048_1_0_0_1_n_n none
        (truncf .bf16 (shapeCast S512x256 v shapeCasts_S1x512x256_S512x256) bitsLt_bf16_f32)
        (shapeCast S256x2048 w shapeCasts_S256x2048_S256x2048) (constant S512x2048 .f32 0x00000000#32) (ix2 p d)
      = ∑ e : Fin 256, v (ix3 (0 : Fin 1) p e) * w (ix2 e d) := by
  refine (mm_rows_wide _ _ p d).trans ?_
  refine Finset.sum_congr rfl fun e _ => ?_
  rw [shapeCast_self]
  exact congrArg (· * w (ix2 e d)) (drop_unit v p e)

/-! ## The first three stored values -/

/-- The accumulator starts as a block of zeros. -/
theorem pay1_apply (j : S256x2048.Idx) : k0_pay1 (F := Ideal) j = 0 := by
  unfold k0_pay1
  exact (congrFun (shapeCast_self _ _) j).trans Ideal.ofBits_zero_f32

/-- The tile of `v = x·W_vᵀ`: entry (p, o) is `∑ₑ x[0, p, e] · W[e, o]`. -/
theorem pay3_apply (v4 : FVec Ideal S256x256 .bf16) (v22 : FVec Ideal S1x512x256 .f32) (p : Fin 512) (o : Fin 256) :
    k0_pay3 (F := Ideal) v4 v22 (ix2 p o) = ∑ e : Fin 256, v22 (ix3 (0 : Fin 1) p e) * v4 (ix2 e o) := by
  unfold k0_pay3 k0_pay2
  dsimp only
  refine (congrFun (shapeCast_self _ _) (ix2 p o)).trans ?_
  exact proj_at v4 v22 p o

/-- The accumulator after a run: the accumulator before it plus `∑ᵣ k[r, e] · a[r, d]` over the run's 512 rows. -/
theorem pay4_apply (v0 : FVec Ideal S256x256 .bf16) (v2 : FVec Ideal S256x2048 .bf16) (v22 v26 : FVec Ideal S1x512x256 .f32)
    (v40 : FVec Ideal S256x2048 .f32) (e : Fin 256) (d : Fin 2048) :
    k0_pay4 (F := Ideal) v0 v2 v22 v26 v40 (ix2 e d)
      = v40 (ix2 e d) + ∑ r : Fin 512, (∑ e' : Fin 256, v22 (ix3 (0 : Fin 1) r e') * v0 (ix2 e' e))
          * (∑ e' : Fin 256, v26 (ix3 (0 : Fin 1) r e') * v2 (ix2 e' d)) := by
  unfold k0_pay4 k0_pay2
  dsimp only
  refine (congrFun (shapeCast_self _ _) (ix2 e d)).trans ?_
  refine congrArg (v40 (ix2 e d) + ·) ?_
  refine (mm_cols _ _ e d).trans ?_
  refine Finset.sum_congr rfl fun r _ => ?_
  exact congrArg₂ (· * ·) (proj_at v0 v22 r e) (projWide_at v2 v26 r d)

/-! ## The softmax of a block of scores along its rows -/

/-- `exp (score − row maximum)` at (p, d). -/
theorem exp_sub_at (s : FVec Ideal S512x2048 .f32) (p : Fin 512) (d : Fin 2048) :
    exp (subf s (broadcastTo S512x2048 (shapeCast S512x1
        (multiReduction .maximumf [1] S512 s 0xFF800000#32 reduces_S512x2048_S512 (.inl rfl) rfl)
        shapeCasts_S512_S512x1) broadcasts_S512x1_S512x2048)) (ix2 p d)
      = Ideal.exp (s (ix2 p d) - Cert.Spec.rowMax (fun k => s (ix2 p k))) :=
  congrArg (fun m => Ideal.exp (s (ix2 p d) - m)) (rowmax_bcast s p d)

/-- The softmax entry at (p, d): the exponential over the row's sum of exponentials. -/
theorem soft_at (s : FVec Ideal S512x2048 .f32) (p : Fin 512) (d : Fin 2048) :
    divf (exp (subf s (broadcastTo S512x2048 (shapeCast S512x1
          (multiReduction .maximumf [1] S512 s 0xFF800000#32 reduces_S512x2048_S512 (.inl rfl) rfl)
          shapeCasts_S512_S512x1) broadcasts_S512x1_S512x2048)))
        (broadcastTo S512x2048 (shapeCast S512x1
          (multiReduction .add [1] S512 (exp (subf s (broadcastTo S512x2048 (shapeCast S512x1
              (multiReduction .maximumf [1] S512 s 0xFF800000#32 reduces_S512x2048_S512 (.inl rfl) rfl)
              shapeCasts_S512_S512x1) broadcasts_S512x1_S512x2048))) 0x00000000#32 reduces_S512x2048_S512 (.inl rfl) rfl)
          shapeCasts_S512_S512x1) broadcasts_S512x1_S512x2048) (ix2 p d)
      = Cert.Spec.soft (fun k => s (ix2 p k)) d := by
  unfold Cert.Spec.soft
  refine (divf_apply _ _ _).trans ?_
  refine congrArg₂ Ideal.div (exp_sub_at s p d) ?_
  refine (rowsum_bcast _ p d).trans ?_
  exact Finset.sum_congr rfl fun k _ => exp_sub_at s p k

/-! ## The result block -/

/-- The result for a run of 512 query rows: row p's softmax of the scaled scores against column o of `v`. -/
theorem pay5_apply (v6 : FVec Ideal S256x256 .bf16) (v13 : FVec Ideal S256x2048 .f32) (v22 : FVec Ideal S1x512x256 .f32)
    (v42 : FVec Ideal S2048x256 .bf16) (p : Fin 512) (o : Fin 256) :
    k0_pay5 (F := Ideal) v6 v13 v22 v42 (ix3 (0 : Fin 1) p o)
      = Cert.Spec.attend (fun d => ((∑ e : Fin 256, (∑ e' : Fin 256, v22 (ix3 (0 : Fin 1) p e') * v6 (ix2 e' e)) * v13 (ix2 e d))
          + (∑ e : Fin 256, (∑ e' : Fin 256, v22 (ix3 (0 : Fin 1) p e') * v6 (ix2 e' e)) * (v13 (ix2 e d) - v13 (ix2 e d))))
          * Ideal.ofBits .f32 0x3D800000#32) (fun d => v42 (ix2 d o)) := by
  unfold k0_pay5
  dsimp only
  refine (add_unit _ p o).trans ?_
  refine (mm_attend _ _ p o).trans ?_
  unfold Cert.Spec.attend
  refine Finset.sum_congr rfl fun d _ => ?_
  refine congrArg (· * v42 (ix2 d o)) ?_
  refine (soft_at _ p d).trans ?_
  refine congrArg (fun f => Cert.Spec.soft f d) (funext fun k => ?_)
  refine congrArg (· * Ideal.ofBits .f32 0x3D800000#32) ?_
  refine congrArg₂ (· + ·) ?_ ?_
  · refine (mm_rows_wide _ _ p k).trans ?_
    refine Finset.sum_congr rfl fun e _ => ?_
    exact congrArg (· * v13 (ix2 e k)) (proj_at v6 v22 p e)
  · refine (mm_rows_wide _ _ p k).trans ?_
    refine Finset.sum_congr rfl fun e _ => ?_
    exact congrArg (· * (v13 (ix2 e k) - v13 (ix2 e k))) (proj_at v6 v22 p e)

end Cert.KernelIdeal.Pay

end
-- ==== Proof.BodySpec.lean ====
/-
  What one call of the kernel body leaves in its output block, as a function of its six input blocks, over the
  extended reals: the same formulas as the whole-array specification, read on one batch's blocks.

  The blocks: `xb`, `yb` are the 1 × 2048 × 256 blocks of the two activation arrays; `wkT`, `wvT`, `wqT` (256 × 256)
  and `waT` (256 × 2048) are the weights already transposed, so that a projection contracts a block's last
  coordinate with a weight's FIRST coordinate.
-/
import proofs.«165236_j90744069030056_2_alg».proof.KernelIdeal
import proofs.«165236_j90744069030056_2_alg».proof.Proof.Spec
import Idealize.ShloMosaic.Lib.ValueIdx

noncomputable section

namespace Cert.KernelIdeal.Body

open Cert.KernelIdeal Idealize.ShloMosaic Idealize.ShloMosaic.ValueIdx

/-- A projection of a block: `∑ₑ xb[0, s, e] · wT[e, o]`. -/
def bproj (xb : FVec Ideal S1x2048x256 .f32) (wT : FVec Ideal S256x256 .bf16) (s : Fin 2048) (o : Fin 256) : EReal :=
  ∑ e : Fin 256, xb (ix3 (0 : Fin 1) s e) * wT (ix2 e o)

/-- The wide projection of a block: `∑ₑ yb[0, t, e] · waT[e, d]`. -/
def bprojWide (yb : FVec Ideal S1x2048x256 .f32) (waT : FVec Ideal S256x2048 .bf16) (t d : Fin 2048) : EReal :=
  ∑ e : Fin 256, yb (ix3 (0 : Fin 1) t e) * waT (ix2 e d)

/-- The contribution of the `k`-th run of 512 positions to `M = kᵀ·a`. -/
def btile (xb yb : FVec Ideal S1x2048x256 .f32) (wkT : FVec Ideal S256x256 .bf16) (waT : FVec Ideal S256x2048 .bf16)
    (k : Fin 4) (e : Fin 256) (d : Fin 2048) : EReal :=
  ∑ r : Fin 512, bproj xb wkT (Cert.Spec.pos k r) e * bprojWide yb waT (Cert.Spec.pos k r) d

/-- `M[e, d]` accumulated from zero, one run after the other. -/
def baccM (xb yb : FVec Ideal S1x2048x256 .f32) (wkT : FVec Ideal S256x256 .bf16) (waT : FVec Ideal S256x2048 .bf16)
    (e : Fin 256) (d : Fin 2048) : EReal :=
  (((0 + btile xb yb wkT waT 0 e d) + btile xb yb wkT waT 1 e d) + btile xb yb wkT waT 2 e d) + btile xb yb wkT waT 3 e d

/-- The scaled score of query row `s` against column `d`. -/
def bscore (xb yb : FVec Ideal S1x2048x256 .f32) (wkT wqT : FVec Ideal S256x256 .bf16) (waT : FVec Ideal S256x2048 .bf16)
    (s d : Fin 2048) : EReal :=
  ((∑ e : Fin 256, bproj xb wqT s e * baccM xb yb wkT waT e d)
    + (∑ e : Fin 256, bproj xb wqT s e * (baccM xb yb wkT waT e d - baccM xb yb wkT waT e d)))
    * Ideal.ofBits .f32 0x3D800000#32

/-- The output block's entry (0, s, o): the softmax of row `s` of the scores against column `o` of `v`. -/
def bodyAt (xb yb : FVec Ideal S1x2048x256 .f32) (wkT : FVec Ideal S256x256 .bf16) (waT : FVec Ideal S256x2048 .bf16)
    (wvT wqT : FVec Ideal S256x256 .bf16) (s : Fin 2048) (o : Fin 256) : EReal :=
  Cert.Spec.attend (fun d => bscore xb yb wkT wqT waT s d) (fun d => bproj xb wvT d o)

/-- The output block (the six blocks in the order the body receives them). -/
def bodyOut (xb yb : FVec Ideal S1x2048x256 .f32) (wkT : FVec Ideal S256x256 .bf16) (waT : FVec Ideal S256x2048 .bf16)
    (wvT wqT : FVec Ideal S256x256 .bf16) : FVec Ideal S1x2048x256 .f32 :=
  fun j => bodyAt xb yb wkT waT wvT wqT ⟨(j 1).val, (j 1).isLt⟩ ⟨(j 2).val, (j 2).isLt⟩

end Cert.KernelIdeal.Body

end
-- ==== Proof.BodyRead.lean ====
/-
  The body's stored values on the blocks it loads, in the block specification's terms.

  The body walks the 2048 positions of a batch in four runs of 512: run `k` loads rows `512·k … 512·k + 511` of an
  activation block.  Read through that offset, the tile of `v` it stores is the block specification's projection at
  those positions, the four nested accumulator updates from the zero block are `M` accumulated run by run, and the
  result block's rows are the block specification's output entries at those positions.
-/
import proofs.«165236_j90744069030056_2_alg».proof.Proof.PayloadRead
import proofs.«165236_j90744069030056_2_alg».proof.Proof.BodySpec
import Idealize.ShloMosaic.Lib.Pipeline.Value

noncomputable section

namespace Cert.KernelIdeal.BodyRead

open Cert.KernelIdeal Cert.KernelIdeal.Gen Cert.KernelIdeal.Body Cert.KernelIdeal.Pay Idealize.ShloMosaic Idealize.ShloMosaic.ValueIdx

/-! ## A run's rows of an activation block -/

/-- Run `k` of the first loop loads rows `512·k + r`: entry (0, r, e) of what it loads is entry (0, 512·k + r, e) of the block. -/
theorem ld_run1 (x : FVec Ideal S1x2048x256 .f32) (k : Fin k0_t1_loop.trips) (j : Fin 4) (hj : k.val = j.val)
    (r : Fin 512) (e : Fin 256) :
    View.ld (Val := Elt Ideal) (e' := .f32) x (Rect.unit (s := S1x2048x256) (k0_off1 k) S1x512x256.size (k0_off1_inb k))
        (ix3 (0 : Fin 1) r e)
      = x (ix3 (0 : Fin 1) (Cert.Spec.pos j r) e) := by
  have h0 : k0_off1 k 0 = 0 := congrFun (k0_off1_eq k) 0
  have h1 : k0_off1 k 1 = 512 * k.val := congrFun (k0_off1_eq k) 1
  have h2 : k0_off1 k 2 = 0 := congrFun (k0_off1_eq k) 2
  refine congrArg x (funext fun a => Fin.ext ?_)
  match a with
  | ⟨0, _⟩ => show k0_off1 k 0 + 1 * 0 = 0; omega
  | ⟨1, _⟩ => show k0_off1 k 1 + 1 * r.val = 512 * j.val + r.val; omega
  | ⟨2, _⟩ => show k0_off1 k 2 + 1 * e.val = e.val; omega

/-- Run `k` of the second loop likewise. -/
theorem ld_run3 (x : FVec Ideal S1x2048x256 .f32) (k : Fin k0_t2_loop.trips) (j : Fin 4) (hj : k.val = j.val)
    (r : Fin 512) (e : Fin 256) :
    View.ld (Val := Elt Ideal) (e' := .f32) x (Rect.unit (s := S1x2048x256) (k0_off3 k) S1x512x256.size (k0_off3_inb k))
        (ix3 (0 : Fin 1) r e)
      = x (ix3 (0 : Fin 1) (Cert.Spec.pos j r) e) := by
  have h0 : k0_off3 k 0 = 0 := congrFun (k0_off3_eq k) 0
  have h1 : k0_off3 k 1 = 512 * k.val := congrFun (k0_off3_eq k) 1
  have h2 : k0_off3 k 2 = 0 := congrFun (k0_off3_eq k) 2
  refine congrArg x (funext fun a => Fin.ext ?_)
  match a with
  | ⟨0, _⟩ => show k0_off3 k 0 + 1 * 0 = 0; omega
  | ⟨1, _⟩ => show k0_off3 k 1 + 1 * r.val = 512 * j.val + r.val; omega
  | ⟨2, _⟩ => show k0_off3 k 2 + 1 * e.val = e.val; omega

/-! ## The stored values -/

/-- The tile of `v` that run `k` stores: row r is the projection at position `512·k + r`. -/
theorem val_piece (x0 : FVec Ideal S1x2048x256 .f32) (x4 : FVec Ideal S256x256 .bf16) (k : Fin k0_t1_loop.trips)
    (j : Fin 4) (hj : k.val = j.val) (r : Fin 512) (o : Fin 256) :
    k0_pay3 (F := Ideal) x4 (View.ld x0 (Rect.unit (s := S1x2048x256) (k0_off1 k) S1x512x256.size (k0_off1_inb k))) (ix2 r o)
      = bproj x0 x4 (Cert.Spec.pos j r) o := by
  refine (pay3_apply x4 _ r o).trans ?_
  unfold bproj
  exact Finset.sum_congr rfl fun e _ => congrArg (· * x4 (ix2 e o)) (ld_run1 x0 k j hj r e)

/-- One accumulator update: run `k` adds its contribution to `M = kᵀ·a`. -/
theorem acc_piece (x0 x1 : FVec Ideal S1x2048x256 .f32) (x2 : FVec Ideal S256x256 .bf16) (x3 : FVec Ideal S256x2048 .bf16)
    (k : Fin k0_t1_loop.trips) (j : Fin 4) (hj : k.val = j.val) (acc : FVec Ideal S256x2048 .f32) (e : Fin 256) (d : Fin 2048) :
    k0_pay4 (F := Ideal) x2 x3 (View.ld x0 (Rect.unit (s := S1x2048x256) (k0_off1 k) S1x512x256.size (k0_off1_inb k)))
        (View.ld x1 (Rect.unit (s := S1x2048x256) (k0_off1 k) S1x512x256.size (k0_off1_inb k))) acc (ix2 e d)
      = acc (ix2 e d) + btile x0 x1 x2 x3 j e d := by
  refine (pay4_apply x2 x3 _ _ acc e d).trans ?_
  refine congrArg (acc (ix2 e d) + ·) ?_
  unfold btile bproj bprojWide
  refine Finset.sum_congr rfl fun r _ => ?_
  refine congrArg₂ (· * ·) ?_ ?_
  · exact Finset.sum_congr rfl fun e' _ => congrArg (· * x2 (ix2 e' e)) (ld_run1 x0 k j hj r e')
  · exact Finset.sum_congr rfl fun e' _ => congrArg (· * x3 (ix2 e' d)) (ld_run1 x1 k j hj r e')

/-- The four updates from the zero block, innermost first, leave `M` as the block specification accumulates it. -/
theorem acc_nested (x0 x1 : FVec Ideal S1x2048x256 .f32) (x2 : FVec Ideal S256x256 .bf16) (x3 : FVec Ideal S256x2048 .bf16)
    (k0 k1 k2 k3 : Fin k0_t1_loop.trips) (h0 : k0.val = 0) (h1 : k1.val = 1) (h2 : k2.val = 2) (h3 : k3.val = 3)
    (e : Fin 256) (d : Fin 2048) :
    k0_pay4 (F := Ideal) x2 x3 (View.ld x0 (Rect.unit (s := S1x2048x256) (k0_off1 k3) S1x512x256.size (k0_off1_inb k3)))
        (View.ld x1 (Rect.unit (s := S1x2048x256) (k0_off1 k3) S1x512x256.size (k0_off1_inb k3)))
      (k0_pay4 (F := Ideal) x2 x3 (View.ld x0 (Rect.unit (s := S1x2048x256) (k0_off1 k2) S1x512x256.size (k0_off1_inb k2)))
          (View.ld x1 (Rect.unit (s := S1x2048x256) (k0_off1 k2) S1x512x256.size (k0_off1_inb k2)))
        (k0_pay4 (F := Ideal) x2 x3 (View.ld x0 (Rect.unit (s := S1x2048x256) (k0_off1 k1) S1x512x256.size (k0_off1_inb k1)))
            (View.ld x1 (Rect.unit (s := S1x2048x256) (k0_off1 k1) S1x512x256.size (k0_off1_inb k1)))
          (k0_pay4 (F := Ideal) x2 x3 (View.ld x0 (Rect.unit (s := S1x2048x256) (k0_off1 k0) S1x512x256.size (k0_off1_inb k0)))
              (View.ld x1 (Rect.unit (s := S1x2048x256) (k0_off1 k0) S1x512x256.size (k0_off1_inb k0))) (k0_pay1 (F := Ideal))))) (ix2 e d)
      = baccM x0 x1 x2 x3 e d := by
  refine (acc_piece x0 x1 x2 x3 k3 3 h3 _ e d).trans ?_
  unfold baccM
  refine congrArg (· + btile x0 x1 x2 x3 3 e d) ?_
  refine (acc_piece x0 x1 x2 x3 k2 2 h2 _ e d).trans ?_
  refine congrArg (· + btile x0 x1 x2 x3 2 e d) ?_
  refine (acc_piece x0 x1 x2 x3 k1 1 h1 _ e d).trans ?_
  refine congrArg (· + btile x0 x1 x2 x3 1 e d) ?_
  refine (acc_piece x0 x1 x2 x3 k0 0 h0 _ e d).trans ?_
  exact congrArg (· + btile x0 x1 x2 x3 0 e d) (pay1_apply _)

/-- The result rows that run `k` of the second loop stores, given the accumulated `M` and the stored `v`: row r is the
    block specification's output entry at position `512·k + r`. -/
theorem out_piece (x0 x1 : FVec Ideal S1x2048x256 .f32) (x2 : FVec Ideal S256x256 .bf16) (x3 : FVec Ideal S256x2048 .bf16)
    (x4 x5 : FVec Ideal S256x256 .bf16) (M : FVec Ideal S256x2048 .f32) (Vf : FVec Ideal S2048x256 .bf16)
    (hM : ∀ (e : Fin 256) (d : Fin 2048), M (ix2 e d) = baccM x0 x1 x2 x3 e d)
    (hV : ∀ (t : Fin 2048) (o : Fin 256), Vf (ix2 t o) = bproj x0 x4 t o)
    (k : Fin k0_t2_loop.trips) (j : Fin 4) (hj : k.val = j.val) (r : Fin 512) (o : Fin 256) :
    k0_pay5 (F := Ideal) x5 M (View.ld x0 (Rect.unit (s := S1x2048x256) (k0_off3 k) S1x512x256.size (k0_off3_inb k))) Vf
        (ix3 (0 : Fin 1) r o)
      = bodyAt x0 x1 x2 x3 x4 x5 (Cert.Spec.pos j r) o := by
  refine (pay5_apply x5 M _ Vf r o).trans ?_
  unfold bodyAt
  refine congrArg₂ Cert.Spec.attend (funext fun d => ?_) (funext fun d => hV d o)
  unfold bscore
  have hq : ∀ e : Fin 256,
      (∑ e' : Fin 256, View.ld (Val := Elt Ideal) (e' := .f32) x0
            (Rect.unit (s := S1x2048x256) (k0_off3 k) S1x512x256.size (k0_off3_inb k)) (ix3 (0 : Fin 1) r e')
          * x5 (ix2 e' e)) = bproj x0 x5 (Cert.Spec.pos j r) e := by
    intro e
    unfold bproj
    exact Finset.sum_congr rfl fun e' _ => congrArg (· * x5 (ix2 e' e)) (ld_run3 x0 k j hj r e')
  refine congrArg (· * Ideal.ofBits .f32 0x3D800000#32) (congrArg₂ (· + ·) ?_ ?_)
  · exact Finset.sum_congr rfl fun e _ => congrArg₂ (· * ·) (hq e) (hM e d)
  · exact Finset.sum_congr rfl fun e _ => congrArg₂ (· * ·) (hq e) (congrArg₂ (· - ·) (hM e d) (hM e d))

end Cert.KernelIdeal.BodyRead

end
-- ==== Proof.OutBlock.lean ====
/-
  What one call of the kernel body leaves in its output block: the block specification's output.

  The body fills the output block by four stores, one per run of 512 rows; the four rectangles tile the block, so the
  block reads, at every index, the payload of the store whose rectangle holds the index.  Run `j`'s payload is the
  attention payload of three things: the run's rows of the first activation block; the accumulator after the first
  loop, which is the zero block updated by the four runs in turn and therefore holds `M = kᵀ·a` accumulated run by
  run; and the value buffer after the first loop, whose four stored tiles also tile it, so that it holds the value
  projection at every position.  With these two facts the payload's row `r` is the block specification's output at
  position `512·j + r`, which is the index the run's rectangle gives that row.
-/
import proofs.«165236_j90744069030056_2_alg».proof.Proof.KernelIdealFrame
import proofs.«165236_j90744069030056_2_alg».proof.Proof.LoopValues
import proofs.«165236_j90744069030056_2_alg».proof.Proof.BodyRead
import proofs.«165236_j90744069030056_2_alg».proof.Proof.BodySpec

set_option maxRecDepth 16384

noncomputable section

namespace Cert.KernelIdeal.OutBlock

open Cert.KernelIdeal Cert.KernelIdeal.Gen Cert.KernelIdeal.GenP
open Cert.KernelIdeal.Trips Cert.KernelIdeal.Folds Cert.KernelIdeal.LoopValues Cert.KernelIdeal.BodyRead Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-- The accumulator after the first loop holds `M = kᵀ·a` accumulated run by run. -/
theorem acc_read (c : Dev nD) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (x0 : FVec Ideal S1x2048x256 .f32) (x1 : FVec Ideal S1x2048x256 .f32) (x2 : FVec Ideal S256x256 .bf16) (x3 : FVec Ideal S256x2048 .bf16) (x4 : FVec Ideal S256x256 .bf16) (x5 : FVec Ideal S256x256 .bf16) (G_arg9 : BufTy.Contents (Elt Ideal) arg9.view.ty) (e : Fin 256) (d : Fin 2048) :
    (View.readAt (Elt Ideal) arg8.view (Rect.unit (s := S256x2048) ![0, 0] S256x2048.size inb_S256x2048_S256x2048_0_0).toLoadRect (arg8.view.writes (Elt Ideal) arg8.view.junk ((pb_k0_t1 (F := Ideal) Variants.none c none i arg1 harg1 arg2 harg2 arg3 harg3 arg4 harg4 arg5 harg5 arg6 harg6 arg7 harg7 arg8 harg8 arg9 harg9 x2 x3 x4 (harg1.unread x0) (harg2.unread x1) (arg8.view.writes (Elt Ideal) arg8.view.junk [(⟨(Rect.unit (s := S256x2048) ![0, 0] S256x2048.size inb_S256x2048_S256x2048_0_0), k0_pay1 (F := Ideal)⟩ : View.Piece (Elt Ideal) S256x2048 .f32)]) G_arg9 (Scf.trips k0_t1_loop.lb k0_t1_loop.ub k0_t1_loop.st)).1 ++ [(⟨(Rect.unit (s := S256x2048) ![0, 0] S256x2048.size inb_S256x2048_S256x2048_0_0), k0_pay1 (F := Ideal)⟩ : View.Piece (Elt Ideal) S256x2048 .f32)]))) (ix2 e d) = baccM x0 x1 x2 x3 e d := by
  rw [readAt_acc, accFold_four]
  exact acc_nested x0 x1 x2 x3 (t1 0) (t1 1) (t1 2) (t1 3) rfl rfl rfl rfl e d

/-- The value buffer after the first loop holds the value projection at every position, whatever it held before. -/
theorem val_read (c : Dev nD) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (x0 : FVec Ideal S1x2048x256 .f32) (x1 : FVec Ideal S1x2048x256 .f32) (x2 : FVec Ideal S256x256 .bf16) (x3 : FVec Ideal S256x2048 .bf16) (x4 : FVec Ideal S256x256 .bf16) (x5 : FVec Ideal S256x256 .bf16) (G_arg9 f : BufTy.Contents (Elt Ideal) arg9.view.ty) (t : Fin 2048) (o : Fin 256) :
    arg9.view.readAt (Elt Ideal) (Rect.unit (s := S2048x256) ![0, 0] S2048x256.size inb_S2048x256_S2048x256_0_0).toLoadRect (arg9.view.writes (Elt Ideal) f (pb_k0_t1 (F := Ideal) Variants.none c none i arg1 harg1 arg2 harg2 arg3 harg3 arg4 harg4 arg5 harg5 arg6 harg6 arg7 harg7 arg8 harg8 arg9 harg9 x2 x3 x4 (harg1.unread x0) (harg2.unread x1) (arg8.view.writes (Elt Ideal) arg8.view.junk [(⟨(Rect.unit (s := S256x2048) ![0, 0] S256x2048.size inb_S256x2048_S256x2048_0_0), k0_pay1 (F := Ideal)⟩ : View.Piece (Elt Ideal) S256x2048 .f32)]) G_arg9 (Scf.trips k0_t1_loop.lb k0_t1_loop.ub k0_t1_loop.st)).2) (ix2 t o)
      = bproj x0 x4 t o := by
  rw [View.readAt_eq_ld, read_val_eq_canon, View.ld_unit_zero off2_zero]
  refine (View.canon_apply_of_pieces (fun q => bproj x0 x4 ⟨(q 0).val, (q 0).isLt⟩ ⟨(q 1).val, (q 1).isLt⟩) _ ?_ (ix2 t o)
    (cover_val Variants.none c none i arg1 harg1 arg2 harg2 arg3 harg3 arg4 harg4 arg5 harg5 arg6 harg6 arg7 harg7 arg8 harg8 arg9 harg9 x2 x3 x4 (harg1.unread x0) (harg2.unread x1) _ G_arg9 (ix2 t o))).trans rfl
  intro p hp x
  obtain ⟨j, rfl⟩ := mem_val_pieces Variants.none c none i arg1 harg1 arg2 harg2 arg3 harg3 arg4 harg4 arg5 harg5 arg6 harg6 arg7 harg7 arg8 harg8 arg9 harg9 x2 x3 x4 x0 x1 _ G_arg9 _ p hp
  obtain ⟨r, o', rfl⟩ : ∃ (r : Fin 512) (o' : Fin 256), x = ix2 r o' := ⟨x 0, x 1, eq_ix2 x⟩
  have h0 : k0_off2 j 0 = 512 * j.val := congrFun (k0_off2_eq j) 0
  have h1 : k0_off2 j 1 = 0 := congrFun (k0_off2_eq j) 1
  refine (val_piece x0 x4 j ⟨j.val, lt_of_lt_of_eq j.isLt trips1_eq⟩ rfl r o').trans ?_
  refine congrArg₂ (bproj x0 x4) (Fin.ext ?_) (Fin.ext ?_)
  · show 512 * j.val + r.val = k0_off2 j 0 + 1 * r.val
    omega
  · show o'.val = k0_off2 j 1 + 1 * o'.val
    omega

/-- THE OUTPUT BLOCK after one call of the body is the block specification's output. -/
theorem out_eq (c : Dev nD) (i : grid0.Coords) (arg1 : Memref sig .tc .vmem S1x2048x256 .f32) (harg1 : arg1.IsWhole) (arg2 : Memref sig .tc .vmem S1x2048x256 .f32) (harg2 : arg2.IsWhole) (arg3 : Memref sig .tc .vmem S256x256 .bf16) (harg3 : arg3.IsWhole) (arg4 : Memref sig .tc .vmem S256x2048 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x2048x256 .f32) (harg7 : arg7.IsWhole) (arg8 : Memref sig .tc .vmem S256x2048 .f32) (harg8 : arg8.IsWhole) (arg9 : Memref sig .tc .vmem S2048x256 .bf16) (harg9 : arg9.IsWhole) (x0 : FVec Ideal S1x2048x256 .f32) (x1 : FVec Ideal S1x2048x256 .f32) (x2 : FVec Ideal S256x256 .bf16) (x3 : FVec Ideal S256x2048 .bf16) (x4 : FVec Ideal S256x256 .bf16) (x5 : FVec Ideal S256x256 .bf16) :
    out0_A_6 (F := Ideal) c i arg1 harg1 arg2 harg2 arg3 harg3 arg4 harg4 arg5 harg5 arg6 harg6 arg7 harg7 arg8 harg8 arg9 harg9 x0 x1 x2 x3 x4 x5 = Cert.KernelIdeal.Body.bodyOut x0 x1 x2 x3 x4 x5 := by
  unfold out0_A_6
  rw [View.read_writes_junk_eq_canon]
  funext y
  refine View.canon_apply_of_pieces (Cert.KernelIdeal.Body.bodyOut x0 x1 x2 x3 x4 x5) _ ?_ y
    (cover0_A_6 (F := Ideal) c i arg1 harg1 arg2 harg2 arg3 harg3 arg4 harg4 arg5 harg5 arg6 harg6 arg7 harg7 arg8 harg8 arg9 harg9 x0 x1 x2 x3 x4 x5 y)
  intro p hp x
  replace hp : p ∈ pb_k0_t2 (F := Ideal) Variants.none c none i arg1 harg1 arg2 harg2 arg3 harg3 arg4 harg4 arg5 harg5 arg6 harg6 arg7 harg7 arg8 harg8 arg9 harg9 (View.readAt (Elt Ideal) arg6.view (Rect.unit (s := S256x256) ![0, 0] S256x256.size inb_S256x256_S256x256_0_0).toLoadRect (harg6.unread x5)) (View.readAt (Elt Ideal) arg8.view (Rect.unit (s := S256x2048) ![0, 0] S256x2048.size inb_S256x2048_S256x2048_0_0).toLoadRect (arg8.view.writes (Elt Ideal) arg8.view.junk ((pb_k0_t1 (F := Ideal) Variants.none c none i arg1 harg1 arg2 harg2 arg3 harg3 arg4 harg4 arg5 harg5 arg6 harg6 arg7 harg7 arg8 harg8 arg9 harg9 (View.readAt (Elt Ideal) arg3.view (Rect.unit (s := S256x256) ![0, 0] S256x256.size inb_S256x256_S256x256_0_0).toLoadRect (harg3.unread x2)) (View.readAt (Elt Ideal) arg4.view (Rect.unit (s := S256x2048) ![0, 0] S256x2048.size inb_S256x2048_S256x2048_0_0).toLoadRect (harg4.unread x3)) (View.readAt (Elt Ideal) arg5.view (Rect.unit (s := S256x256) ![0, 0] S256x256.size inb_S256x256_S256x256_0_0).toLoadRect (harg5.unread x4)) (harg1.unread x0) (harg2.unread x1) (arg8.view.writes (Elt Ideal) arg8.view.junk [(⟨(Rect.unit (s := S256x2048) ![0, 0] S256x2048.size inb_S256x2048_S256x2048_0_0), k0_pay1 (F := Ideal)⟩ : View.Piece (Elt Ideal) S256x2048 .f32)]) arg9.view.junk (Scf.trips k0_t1_loop.lb k0_t1_loop.ub k0_t1_loop.st)).1 ++ [(⟨(Rect.unit (s := S256x2048) ![0, 0] S256x2048.size inb_S256x2048_S256x2048_0_0), k0_pay1 (F := Ideal)⟩ : View.Piece (Elt Ideal) S256x2048 .f32)]))) (harg1.unread x0) (arg9.view.writes (Elt Ideal) arg9.view.junk (pb_k0_t1 (F := Ideal) Variants.none c none i arg1 harg1 arg2 harg2 arg3 harg3 arg4 harg4 arg5 harg5 arg6 harg6 arg7 harg7 arg8 harg8 arg9 harg9 (View.readAt (Elt Ideal) arg3.view (Rect.unit (s := S256x256) ![0, 0] S256x256.size inb_S256x256_S256x256_0_0).toLoadRect (harg3.unread x2)) (View.readAt (Elt Ideal) arg4.view (Rect.unit (s := S256x2048) ![0, 0] S256x2048.size inb_S256x2048_S256x2048_0_0).toLoadRect (harg4.unread x3)) (View.readAt (Elt Ideal) arg5.view (Rect.unit (s := S256x256) ![0, 0] S256x256.size inb_S256x256_S256x256_0_0).toLoadRect (harg5.unread x4)) (harg1.unread x0) (harg2.unread x1) (arg8.view.writes (Elt Ideal) arg8.view.junk [(⟨(Rect.unit (s := S256x2048) ![0, 0] S256x2048.size inb_S256x2048_S256x2048_0_0), k0_pay1 (F := Ideal)⟩ : View.Piece (Elt Ideal) S256x2048 .f32)]) arg9.view.junk (Scf.trips k0_t1_loop.lb k0_t1_loop.ub k0_t1_loop.st)).2) (Scf.trips k0_t2_loop.lb k0_t2_loop.ub k0_t2_loop.st) := hp
  rw [readAt_arg6, readAt_arg3, readAt_arg4, readAt_arg5] at hp
  obtain ⟨j, rfl⟩ := mem_out_pieces Variants.none c none i arg1 harg1 arg2 harg2 arg3 harg3 arg4 harg4 arg5 harg5 arg6 harg6 arg7 harg7 arg8 harg8 arg9 harg9 x5 _ x0 _ _ p hp
  obtain ⟨z, r, o, rfl⟩ : ∃ (z : Fin 1) (r : Fin 512) (o : Fin 256), x = ix3 z r o := ⟨x 0, x 1, x 2, eq_ix3 x⟩
  obtain rfl : z = 0 := Subsingleton.elim _ _
  have h1 : k0_off3 j 1 = 512 * j.val := congrFun (k0_off3_eq j) 1
  have h2 : k0_off3 j 2 = 0 := congrFun (k0_off3_eq j) 2
  refine (out_piece x0 x1 x2 x3 x4 x5 _ _
    (fun e d => acc_read c i arg1 harg1 arg2 harg2 arg3 harg3 arg4 harg4 arg5 harg5 arg6 harg6 arg7 harg7 arg8 harg8 arg9 harg9 x0 x1 x2 x3 x4 x5 arg9.view.junk e d)
    (fun t o => val_read c i arg1 harg1 arg2 harg2 arg3 harg3 arg4 harg4 arg5 harg5 arg6 harg6 arg7 harg7 arg8 harg8 arg9 harg9 x0 x1 x2 x3 x4 x5 arg9.view.junk arg9.view.junk t o)
    j ⟨j.val, lt_of_lt_of_eq j.isLt trips2_eq⟩ rfl r o).trans ?_
  unfold Cert.KernelIdeal.Body.bodyOut
  refine congrArg₂ (bodyAt x0 x1 x2 x3 x4 x5) (Fin.ext ?_) (Fin.ext ?_)
  · show 512 * j.val + r.val = k0_off3 j 1 + 1 * r.val
    omega
  · show o.val = k0_off3 j 2 + 1 * o.val
    omega

end Cert.KernelIdeal.OutBlock

end
-- ==== Proof.Blocks.lean ====
/-
  The kernel body's input blocks, read off the argument arrays, and the body's output entry on those blocks.

  Before the grid runs, the host transposes each weight and changes its float format (the identity on the extended
  reals); the two activation arrays are staged one batch at a time, block (t, 0, 0) of 1 × 2048 × 256 at grid point
  `t`, and the four transposed weights whole at every point.  So at point `t` an activation block's entry
  (0, s, e) is the array's entry (t, s, e), a weight block's entry (e, o) is the weight's entry (o, e), and the
  body's output entry on these blocks is the specification's `kerAt` at batch `t`.
-/
import proofs.«165236_j90744069030056_2_alg».proof.Proof.Gen.KernelIdeal.Frame.Runs
import proofs.«165236_j90744069030056_2_alg».proof.Proof.BodySpec
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The transposed weights the host prepares -/

/-- A transposed and re-formatted square weight read at (e, o) is the weight at (o, e). -/
theorem transposed_sq_apply (w : (⟨S256x256, .f32⟩ : BufTy).Contents (Elt Ideal)) (e o : Fin 256) :
    (truncf .bf16 (transpose S256x256 [1, 0] w transposes_S256x256_S256x256_1_0) bitsLt_bf16_f32
      : FVec Ideal S256x256 .bf16) (ix2 e o) = w (ix2 o e) := by
  show transpose S256x256 [1, 0] w transposes_S256x256_S256x256_1_0 (ix2 e o) = w (ix2 o e)
  refine transpose_apply _ w _ (ix2 e o) (ix2 o e) fun b => ?_
  match b with
  | ⟨0, _⟩ => rfl
  | ⟨1, _⟩ => rfl

/-- The transposed and re-formatted wide weight read at (e, d) is the weight at (d, e). -/
theorem transposed_wide_apply (w : (⟨S2048x256, .f32⟩ : BufTy).Contents (Elt Ideal)) (e : Fin 256) (d : Fin 2048) :
    (truncf .bf16 (transpose S256x2048 [1, 0] w transposes_S2048x256_S256x2048_1_0) bitsLt_bf16_f32
      : FVec Ideal S256x2048 .bf16) (ix2 e d) = w (ix2 d e) := by
  show transpose S256x2048 [1, 0] w transposes_S2048x256_S256x2048_1_0 (ix2 e d) = w (ix2 d e)
  refine transpose_apply _ w _ (ix2 e d) (ix2 d e) fun b => ?_
  match b with
  | ⟨0, _⟩ => rfl
  | ⟨1, _⟩ => rfl

/-- `W_vᵀ` as the region finds it. -/
theorem V_main_v1 (c : Dev nD) :
    @Eq (FVec Ideal S256x256 .bf16) (V m c main_v1)
      (truncf (F := Ideal) .bf16 (transpose S256x256 [1, 0] (m ((c : Thread nD τ).loc main_arg2)) transposes_S256x256_S256x256_1_0) bitsLt_bf16_f32) := by
  dsimp only [V, hostOps0]; after_results

/-- `W_kᵀ` as the region finds it. -/
theorem V_main_v3 (c : Dev nD) :
    @Eq (FVec Ideal S256x256 .bf16) (V m c main_v3)
      (truncf (F := Ideal) .bf16 (transpose S256x256 [1, 0] (m ((c : Thread nD τ).loc main_arg3)) transposes_S256x256_S256x256_1_0) bitsLt_bf16_f32) := by
  dsimp only [V, hostOps0]; after_results

/-- `W_qᵀ` as the region finds it. -/
theorem V_main_v5 (c : Dev nD) :
    @Eq (FVec Ideal S256x256 .bf16) (V m c main_v5)
      (truncf (F := Ideal) .bf16 (transpose S256x256 [1, 0] (m ((c : Thread nD τ).loc main_arg4)) transposes_S256x256_S256x256_1_0) bitsLt_bf16_f32) := by
  dsimp only [V, hostOps0]; after_results

/-- `W_aᵀ` as the region finds it. -/
theorem V_main_v7 (c : Dev nD) :
    @Eq (FVec Ideal S256x2048 .bf16) (V m c main_v7)
      (truncf (F := Ideal) .bf16 (transpose S256x2048 [1, 0] (m ((c : Thread nD τ).loc main_arg5)) transposes_S2048x256_S256x2048_1_0) bitsLt_bf16_f32) := by
  dsimp only [V, hostOps0]; after_results

/-! ## The blocks at a grid point -/

/-- The grid has 16 points: a point's number is a batch. -/
theorem lt16 (t : Fin cfg0.N) : t.val < 16 := by
  have h := t.isLt
  have hN : cfg0.N = 16 := N_0
  omega

/-- The index maps, decided over the grid: the activation windows' block index is (t, 0, 0); the four weight
    windows stay at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The first activation array's block at point `t`: entry (0, s, e) is the array's entry (t, s, e). -/
theorem iblk0_apply (c : Dev nD) (t : Fin cfg0.N) (s : Fin 2048) (e : Fin 256) :
    (iblk m c 0 t : FVec Ideal S1x2048x256 .f32) (ix3 (0 : Fin 1) s e)
      = (m ((c : Thread nD τ).loc main_arg0) : FVec Ideal S16x2048x256 .f32) (ix3 (⟨t.val, lt16 t⟩ : Fin 16) s e) := by
  obtain ⟨⟨h0, h1, h2⟩, -⟩ := idx_facts t
  unfold iblk
  show V m c main_arg0 (((cfg0.win 0).blk t).view.emb (ix3 (0 : Fin 1) s e)) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 256 + 1 * e.val = e.val; omega

/-- The second activation array's block likewise. -/
theorem iblk1_apply (c : Dev nD) (t : Fin cfg0.N) (s : Fin 2048) (e : Fin 256) :
    (iblk m c 1 t : FVec Ideal S1x2048x256 .f32) (ix3 (0 : Fin 1) s e)
      = (m ((c : Thread nD τ).loc main_arg1) : FVec Ideal S16x2048x256 .f32) (ix3 (⟨t.val, lt16 t⟩ : Fin 16) s e) := by
  obtain ⟨-, ⟨h0, h1, h2⟩, -⟩ := idx_facts t
  unfold iblk
  show V m c main_arg1 (((cfg0.win 1).blk t).view.emb (ix3 (0 : Fin 1) s e)) = _
  rw [V_main_arg1]
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 2048 + 1 * s.val = s.val; omega
  | ⟨2, _⟩ => show win0_1.index t (2 : Fin 3) * 256 + 1 * e.val = e.val; omega

/-- `W_kᵀ`'s block (the whole array) at any point: entry (e, o) is `W_k`'s entry (o, e). -/
theorem iblk2_apply (c : Dev nD) (t : Fin cfg0.N) (e : Fin 256) (o : Fin 256) :
    (iblk m c 2 t : FVec Ideal S256x256 .bf16) (ix2 e o)
      = (m ((c : Thread nD τ).loc main_arg3) : FVec Ideal S256x256 .f32) (ix2 o e) := by
  obtain ⟨-, -, ⟨h0, h1⟩, -⟩ := idx_facts t
  unfold iblk
  show (V m c main_v3 : FVec Ideal S256x256 .bf16) (((cfg0.win 2).blk t).view.emb (ix2 e o)) = _
  have he : ((cfg0.win 2).blk t).view.emb (ix2 e o) = ix2 e o := funext fun a => Fin.ext (by
    match a with
    | ⟨0, _⟩ => show win0_2.index t (0 : Fin 2) * 256 + 1 * e.val = e.val; omega
    | ⟨1, _⟩ => show win0_2.index t (1 : Fin 2) * 256 + 1 * o.val = o.val; omega)
  exact (congrArg (V m c main_v3 : FVec Ideal S256x256 .bf16) he).trans
    ((congrFun (V_main_v3 m c) (ix2 e o)).trans (transposed_sq_apply _ e o))

/-- `W_aᵀ`'s block at any point: entry (e, d) is `W_a`'s entry (d, e). -/
theorem iblk3_apply (c : Dev nD) (t : Fin cfg0.N) (e : Fin 256) (o : Fin 2048) :
    (iblk m c 3 t : FVec Ideal S256x2048 .bf16) (ix2 e o)
      = (m ((c : Thread nD τ).loc main_arg5) : FVec Ideal S2048x256 .f32) (ix2 o e) := by
  obtain ⟨-, -, -, ⟨h0, h1⟩, -⟩ := idx_facts t
  unfold iblk
  show (V m c main_v7 : FVec Ideal S256x2048 .bf16) (((cfg0.win 3).blk t).view.emb (ix2 e o)) = _
  have he : ((cfg0.win 3).blk t).view.emb (ix2 e o) = ix2 e o := funext fun a => Fin.ext (by
    match a with
    | ⟨0, _⟩ => show win0_3.index t (0 : Fin 2) * 256 + 1 * e.val = e.val; omega
    | ⟨1, _⟩ => show win0_3.index t (1 : Fin 2) * 2048 + 1 * o.val = o.val; omega)
  exact (congrArg (V m c main_v7 : FVec Ideal S256x2048 .bf16) he).trans
    ((congrFun (V_main_v7 m c) (ix2 e o)).trans (transposed_wide_apply _ e o))

/-- `W_vᵀ`'s block at any point: entry (e, o) is `W_v`'s entry (o, e). -/
theorem iblk4_apply (c : Dev nD) (t : Fin cfg0.N) (e : Fin 256) (o : Fin 256) :
    (iblk m c 4 t : FVec Ideal S256x256 .bf16) (ix2 e o)
      = (m ((c : Thread nD τ).loc main_arg2) : FVec Ideal S256x256 .f32) (ix2 o e) := by
  obtain ⟨-, -, -, -, ⟨h0, h1⟩, -⟩ := idx_facts t
  unfold iblk
  show (V m c main_v1 : FVec Ideal S256x256 .bf16) (((cfg0.win 4).blk t).view.emb (ix2 e o)) = _
  have he : ((cfg0.win 4).blk t).view.emb (ix2 e o) = ix2 e o := funext fun a => Fin.ext (by
    match a with
    | ⟨0, _⟩ => show win0_4.index t (0 : Fin 2) * 256 + 1 * e.val = e.val; omega
    | ⟨1, _⟩ => show win0_4.index t (1 : Fin 2) * 256 + 1 * o.val = o.val; omega)
  exact (congrArg (V m c main_v1 : FVec Ideal S256x256 .bf16) he).trans
    ((congrFun (V_main_v1 m c) (ix2 e o)).trans (transposed_sq_apply _ e o))

/-- `W_qᵀ`'s block at any point: entry (e, o) is `W_q`'s entry (o, e). -/
theorem iblk5_apply (c : Dev nD) (t : Fin cfg0.N) (e : Fin 256) (o : Fin 256) :
    (iblk m c 5 t : FVec Ideal S256x256 .bf16) (ix2 e o)
      = (m ((c : Thread nD τ).loc main_arg4) : FVec Ideal S256x256 .f32) (ix2 o e) := by
  obtain ⟨-, -, -, -, -, h0, h1⟩ := idx_facts t
  unfold iblk
  show (V m c main_v5 : FVec Ideal S256x256 .bf16) (((cfg0.win 5).blk t).view.emb (ix2 e o)) = _
  have he : ((cfg0.win 5).blk t).view.emb (ix2 e o) = ix2 e o := funext fun a => Fin.ext (by
    match a with
    | ⟨0, _⟩ => show win0_5.index t (0 : Fin 2) * 256 + 1 * e.val = e.val; omega
    | ⟨1, _⟩ => show win0_5.index t (1 : Fin 2) * 256 + 1 * o.val = o.val; omega)
  exact (congrArg (V m c main_v5 : FVec Ideal S256x256 .bf16) he).trans
    ((congrFun (V_main_v5 m c) (ix2 e o)).trans (transposed_sq_apply _ e o))

/-! ## The body's output entry on blocks that are rows of the arrays -/

/-- When the activation blocks are batch `b` of the two activation arrays and the weight blocks are the weights
    transposed, the body's output entry (0, s, o) is the specification's `kerAt` at (b, s, o): the two are
    the same sums of the same entries. -/
theorem bodyAt_of_reads (xb yb : FVec Ideal S1x2048x256 .f32) (wkT : FVec Ideal S256x256 .bf16)
    (waT : FVec Ideal S256x2048 .bf16) (wvT wqT : FVec Ideal S256x256 .bf16)
    (x y : Cert.Spec.Act) (wv wk wq : Cert.Spec.Sq) (wa : Cert.Spec.Wide) (b : Fin 16)
    (hx : ∀ (s : Fin 2048) (e : Fin 256), xb (ix3 (0 : Fin 1) s e) = x (ix3 b s e))
    (hy : ∀ (s : Fin 2048) (e : Fin 256), yb (ix3 (0 : Fin 1) s e) = y (ix3 b s e))
    (hk : ∀ e o : Fin 256, wkT (ix2 e o) = wk (ix2 o e))
    (ha : ∀ (e : Fin 256) (d : Fin 2048), waT (ix2 e d) = wa (ix2 d e))
    (hv : ∀ e o : Fin 256, wvT (ix2 e o) = wv (ix2 o e))
    (hq : ∀ e o : Fin 256, wqT (ix2 e o) = wq (ix2 o e))
    (s : Fin 2048) (o : Fin 256) :
    Cert.KernelIdeal.Body.bodyAt xb yb wkT waT wvT wqT s o = Cert.Spec.kerAt x y wv wk wq wa b s o := by
  have hproj : ∀ (wT : FVec Ideal S256x256 .bf16) (w : Cert.Spec.Sq), (∀ e o : Fin 256, wT (ix2 e o) = w (ix2 o e)) →
      ∀ (s : Fin 2048) (o : Fin 256), Cert.KernelIdeal.Body.bproj xb wT s o = Cert.Spec.proj x w b s o := by
    intro wT w h s o
    unfold Cert.KernelIdeal.Body.bproj Cert.Spec.proj
    exact Finset.sum_congr rfl fun e _ => by rw [hx, h]
  have hwide : ∀ t d : Fin 2048, Cert.KernelIdeal.Body.bprojWide yb waT t d = Cert.Spec.projWide y wa b t d := by
    intro t d
    unfold Cert.KernelIdeal.Body.bprojWide Cert.Spec.projWide
    exact Finset.sum_congr rfl fun e _ => by rw [hy, ha]
  have htile : ∀ (k : Fin 4) (e : Fin 256) (d : Fin 2048),
      Cert.KernelIdeal.Body.btile xb yb wkT waT k e d = Cert.Spec.tile x y wk wa b k e d := by
    intro k e d
    unfold Cert.KernelIdeal.Body.btile Cert.Spec.tile
    exact Finset.sum_congr rfl fun r _ => by rw [hproj wkT wk hk, hwide]
  have hacc : ∀ (e : Fin 256) (d : Fin 2048),
      Cert.KernelIdeal.Body.baccM xb yb wkT waT e d = Cert.Spec.accM x y wk wa b e d := by
    intro e d
    unfold Cert.KernelIdeal.Body.baccM Cert.Spec.accM
    rw [htile, htile, htile, htile]
  have hscore : ∀ d : Fin 2048,
      Cert.KernelIdeal.Body.bscore xb yb wkT wqT waT s d = Cert.Spec.kerScore x y wk wq wa b s d := by
    intro d
    unfold Cert.KernelIdeal.Body.bscore Cert.Spec.kerScore
    refine congrArg (· * Ideal.ofBits .f32 0x3D800000#32) (congrArg₂ (· + ·) ?_ ?_)
    · exact Finset.sum_congr rfl fun e _ => by rw [hproj wqT wq hq, hacc]
    · exact Finset.sum_congr rfl fun e _ => by rw [hproj wqT wq hq, hacc]
  unfold Cert.KernelIdeal.Body.bodyAt Cert.Spec.kerAt
  exact congrArg₂ Cert.Spec.attend (funext hscore) (funext fun d => hproj wvT wv hv d o)

/-- At grid point `t` the body's output entry (0, s, o) on the staged blocks is the specification's `kerAt` of the
    argument arrays at batch `t`. -/
theorem body_at_blocks (c : Dev nD) (t : Fin cfg0.N) (s : Fin 2048) (o : Fin 256) :
    Cert.KernelIdeal.Body.bodyAt (iblk m c 0 t) (iblk m c 1 t) (iblk m c 2 t) (iblk m c 3 t) (iblk m c 4 t) (iblk m c 5 t) s o
      = Cert.Spec.kerAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) ⟨t.val, lt16 t⟩ s o :=
  bodyAt_of_reads _ _ _ _ _ _ _ _ _ _ _ _ ⟨t.val, lt16 t⟩ (iblk0_apply m c t) (iblk1_apply m c t)
    (iblk2_apply m c t) (iblk3_apply m c t) (iblk4_apply m c t) (iblk5_apply m c t) s o

end Cert.KernelIdeal.Blocks

end
-- ==== Proof.Final.lean ====
/-
  From the output blocks to the output array.

  Grid point `t` (one batch) writes back the block `[t, 0:2048, 0:256]` of the result.  What it writes is the body's
  output block of the point's input blocks, and that block is the batch-`t` slab of the whole-array function
  `kerOut` of the six argument arrays; the sixteen slabs cover the array, so after the run the result array is
  `kerOut` of the arguments.
-/
import proofs.«165236_j90744069030056_2_alg».proof.Proof.KernelIdealValue
import proofs.«165236_j90744069030056_2_alg».proof.Proof.OutBlock
import proofs.«165236_j90744069030056_2_alg».proof.Proof.Blocks

noncomputable section

namespace Cert.KernelIdeal.Final

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The whole result array as a function of the argument arrays. -/
abbrev G (c : Dev nD) : S16x2048x256.Idx → EReal :=
  Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The output window's index map: point `t` holds block `(t, 0, 0)`. -/
theorem idx_out : ∀ t : Fin cfg0.N, win0_6.index t (0 : Fin 3) = t.val ∧ win0_6.index t (1 : Fin 3) = 0 ∧ win0_6.index t (2 : Fin 3) = 0 :=
  (by decide +kernel : ∀ t : Fin grid0.N, _)

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold outsAt0
  rw [Cert.KernelIdeal.OutBlock.out_eq]
  obtain ⟨e0, e1, e2⟩ := idx_out t
  funext j
  show Cert.KernelIdeal.Body.bodyOut (iblk m c 0 t) (iblk m c 1 t) (iblk m c 2 t) (iblk m c 3 t) (iblk m c 4 t) (iblk m c 5 t) j
    = G m c (((cfg0.win 6).blk t).view.emb j)
  have h0 : ((((cfg0.win 6).blk t).view.emb j) 0).val = t.val := by
    show win0_6.index t (0 : Fin 3) * 1 + 1 * (j 0).val = t.val
    have hj : (j 0).val < 1 := (j 0).isLt
    omega
  have h1 : ((((cfg0.win 6).blk t).view.emb j) 1).val = (j 1).val := by
    show win0_6.index t (1 : Fin 3) * 2048 + 1 * (j 1).val = (j 1).val
    omega
  have h2 : ((((cfg0.win 6).blk t).view.emb j) 2).val = (j 2).val := by
    show win0_6.index t (2 : Fin 3) * 256 + 1 * (j 2).val = (j 2).val
    omega
  unfold Cert.KernelIdeal.Body.bodyOut
  show _ = Cert.Spec.kerAt _ _ _ _ _ _ ⟨((((cfg0.win 6).blk t).view.emb j) 0).val, _⟩ ⟨((((cfg0.win 6).blk t).view.emb j) 1).val, _⟩ ⟨((((cfg0.win 6).blk t).view.emb j) 2).val, _⟩
  rw [Cert.KernelIdeal.Blocks.body_at_blocks m c t]
  congr 1
  · exact Fin.ext h0.symm
  · exact Fin.ext h1.symm
  · exact Fin.ext h2.symm

/-- Membership in point `t`'s block, coordinate by coordinate. -/
theorem mem_blk (t : Fin cfg0.N) (i : S16x2048x256.Idx) :
    i ∈ ((cfg0.win 6).blk t).view.set ↔ ∀ a : Fin 3, win0_6.index t a * S1x2048x256.size a ≤ (i a).val ∧ (i a).val < win0_6.index t a * S1x2048x256.size a + S1x2048x256.size a := by
  show i ∈ ((View.whole main_v8).slice (win0_6.rect t)).set ↔ _
  rw [View.set_slice_whole, Rect.mem_set_unit]
  exact Iff.rfl

/-- Every index of the result lies in the block of its batch's point. -/
theorem cover (i : S16x2048x256.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 256 := (i 2).isLt
  refine ⟨⟨(i 0).val, lt_of_lt_of_eq hi0 N_0.symm⟩, flush0_6 _, ?_⟩
  rw [mem_blk]
  obtain ⟨e0, e1, e2⟩ := idx_out ⟨(i 0).val, lt_of_lt_of_eq hi0 N_0.symm⟩
  intro a
  match a with
  | ⟨0, _⟩ => show win0_6.index _ (0 : Fin 3) * 1 ≤ (i 0).val ∧ (i 0).val < win0_6.index _ (0 : Fin 3) * 1 + 1; simp only [e0]; omega
  | ⟨1, _⟩ => show win0_6.index _ (1 : Fin 3) * 2048 ≤ (i 1).val ∧ (i 1).val < win0_6.index _ (1 : Fin 3) * 2048 + 2048; simp only [e1]; omega
  | ⟨2, _⟩ => show win0_6.index _ (2 : Fin 3) * 256 ≤ (i 2).val ∧ (i 2).val < win0_6.index _ (2 : Fin 3) * 256 + 256; simp only [e2]; omega

/-- After the run the result array is `kerOut` of the argument arrays. -/
theorem final (c : Dev nD) : (dats m 0 c).arrAt 6 cfg0.N = G m c :=
  (dats m 0 c).arrAt_eq_of_cover 6 (G m c) (fun t _ => flushed_eq m c t) (cover)

/-- The kernel's run with its result named. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.ValueP.run_blocks m ρ)

end Cert.KernelIdeal.Final

end
-- ==== Proof.RefSide.lean ====
/-
  The reference program's result, read index by index: each stage of the reference at an index built from
  literal coordinates, ending in the specification's `refOut`.
-/
import proofs.«165236_j90744069030056_2_alg».proof.Proof.Gen.ReferenceIdeal.Read
import proofs.«165236_j90744069030056_2_alg».proof.Proof.Spec

noncomputable section

namespace Cert.RefSide

open Idealize.ShloMosaic Idealize.ShloMosaic.ValueIdx Cert.ReferenceIdeal Cert.ReferenceIdeal.Gen Cert.ReferenceIdeal.Read

variable (x0 x1 : (⟨S16x2048x256, .f32⟩ : BufTy).Contents (Elt Ideal))
  (x2 x3 x4 : (⟨S256x256, .f32⟩ : BufTy).Contents (Elt Ideal))
  (x5 : (⟨S2048x256, .f32⟩ : BufTy).Contents (Elt Ideal))

/-! ## The four projections -/

/-- `v = x·W_vᵀ` at `(b, s, o)`. -/
theorem v0_at (b : Fin 16) (s : Fin 2048) (o : Fin 256) :
    val_main_v0 (F := Ideal) x0 x2 (ix3 b s o) = Cert.Spec.proj x0 x2 b s o := by
  rw [val_main_v0_apply]
  unfold Cert.Spec.proj
  refine Finset.sum_congr rfl fun k _ => ?_
  have el : lidx_main_v0 (ix3 b s o) k = ix3 b s k :=
    funext fun a => Fin.ext (by match a with | ⟨0, _⟩ => rfl | ⟨1, _⟩ => rfl | ⟨2, _⟩ => rfl)
  have er : ridx_main_v0 (ix3 b s o) k = ix2 o k :=
    funext fun a => Fin.ext (by match a with | ⟨0, _⟩ => rfl | ⟨1, _⟩ => rfl)
  rw [el, er]

/-- `k = x·W_kᵀ` at `(b, t, e)`. -/
theorem v1_at (b : Fin 16) (t : Fin 2048) (e : Fin 256) :
    val_main_v1 (F := Ideal) x0 x3 (ix3 b t e) = Cert.Spec.proj x0 x3 b t e := by
  rw [val_main_v1_apply]
  unfold Cert.Spec.proj
  refine Finset.sum_congr rfl fun k _ => ?_
  have el : lidx_main_v1 (ix3 b t e) k = ix3 b t k :=
    funext fun a => Fin.ext (by match a with | ⟨0, _⟩ => rfl | ⟨1, _⟩ => rfl | ⟨2, _⟩ => rfl)
  have er : ridx_main_v1 (ix3 b t e) k = ix2 e k :=
    funext fun a => Fin.ext (by match a with | ⟨0, _⟩ => rfl | ⟨1, _⟩ => rfl)
  rw [el, er]

/-- `q = x·W_qᵀ` at `(b, s, e)`. -/
theorem v2_at (b : Fin 16) (s : Fin 2048) (e : Fin 256) :
    val_main_v2 (F := Ideal) x0 x4 (ix3 b s e) = Cert.Spec.proj x0 x4 b s e := by
  rw [val_main_v2_apply]
  unfold Cert.Spec.proj
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 e k :=
    funext fun a => Fin.ext (by match a with | ⟨0, _⟩ => rfl | ⟨1, _⟩ => rfl)
  rw [el, er]

/-- `a = y·W_aᵀ` at `(b, t, d)`. -/
theorem v3_at (b : Fin 16) (t d : Fin 2048) :
    val_main_v3 (F := Ideal) x1 x5 (ix3 b t d) = Cert.Spec.projWide x1 x5 b t d := by
  rw [val_main_v3_apply]
  unfold Cert.Spec.projWide
  refine Finset.sum_congr rfl fun k _ => ?_
  have el : lidx_main_v3 (ix3 b t d) k = ix3 b t k :=
    funext fun a => Fin.ext (by match a with | ⟨0, _⟩ => rfl | ⟨1, _⟩ => rfl | ⟨2, _⟩ => rfl)
  have er : ridx_main_v3 (ix3 b t d) k = ix2 d k :=
    funext fun a => Fin.ext (by match a with | ⟨0, _⟩ => rfl | ⟨1, _⟩ => rfl)
  rw [el, er]

/-! ## The scores -/

/-- `(q·kᵀ)[b, s, t] = ∑ₑ q[b, s, e] · k[b, t, e]`. -/
theorem v4_at (b : Fin 16) (s t : Fin 2048) :
    val_main_v4 (F := Ideal) x0 x3 x4 (ix3 b s t)
      = ∑ e : Fin 256, Cert.Spec.proj x0 x4 b s e * Cert.Spec.proj x0 x3 b t e := by
  rw [val_main_v4_apply]
  refine Finset.sum_congr rfl fun k _ => ?_
  have el : lidx_main_v4 (ix3 b s t) k = ix3 b s k :=
    funext fun a => Fin.ext (by match a with | ⟨0, _⟩ => rfl | ⟨1, _⟩ => rfl | ⟨2, _⟩ => rfl)
  have er : ridx_main_v4 (ix3 b s t) k = ix3 b t k :=
    funext fun a => Fin.ext (by match a with | ⟨0, _⟩ => rfl | ⟨1, _⟩ => rfl | ⟨2, _⟩ => rfl)
  rw [el, er, v2_at, v1_at]

/-- `((q·kᵀ)·a)[b, s, d] = ∑ₜ (q·kᵀ)[b, s, t] · a[b, t, d]`. -/
theorem v5_at (b : Fin 16) (s d : Fin 2048) :
    val_main_v5 (F := Ideal) x0 x1 x3 x4 x5 (ix3 b s d)
      = ∑ t : Fin 2048, (∑ e : Fin 256, Cert.Spec.proj x0 x4 b s e * Cert.Spec.proj x0 x3 b t e)
          * Cert.Spec.projWide x1 x5 b t d := by
  rw [val_main_v5_apply]
  refine Finset.sum_congr rfl fun k _ => ?_
  have el : lidx_main_v5 (ix3 b s d) k = ix3 b s k :=
    funext fun a => Fin.ext (by match a with | ⟨0, _⟩ => rfl | ⟨1, _⟩ => rfl | ⟨2, _⟩ => rfl)
  have er : ridx_main_v5 (ix3 b s d) k = ix3 b k d :=
    funext fun a => Fin.ext (by match a with | ⟨0, _⟩ => rfl | ⟨1, _⟩ => rfl | ⟨2, _⟩ => rfl)
  rw [el, er, v4_at, v3_at]

/-- The divisor is the square root of the constant `256.0`, at every index. -/
theorem v7_at (i : S16x2048x2048.Idx) :
    val_main_v7 (F := Ideal) i = Ideal.sqrt (Ideal.ofBits .f32 0x43800000#32) := by
  rw [val_main_v7_apply, val_main_v6_apply, val_main_cst_apply]
  rfl

/-- The scaled score at `(b, s, d)`. -/
theorem v8_at (b : Fin 16) (s d : Fin 2048) :
    val_main_v8 (F := Ideal) x0 x1 x3 x4 x5 (ix3 b s d) = Cert.Spec.refScore x0 x1 x3 x4 x5 b s d := by
  rw [val_main_v8_apply, v7_at, v5_at]
  rfl

/-! ## The row maximum -/

/-- The shape fact that names the index with a coordinate inserted on the reduced axis. -/
theorem reduces_last : S16x2048x2048.Reduces [2] S16x2048 := by decide

/-- Inserting `d` on the last axis over `(b, s)` gives `(b, s, d)`. -/
theorem lift_at (b : Fin 16) (s d : Fin 2048) : reduces_last.lift (ix2 b s) d = ix3 b s d :=
  funext fun a => Fin.ext (by match a with | ⟨0, _⟩ => rfl | ⟨1, _⟩ => rfl | ⟨2, _⟩ => rfl)

/-- The float maximum at the ideal values is `max`, also as the operation of a fold. -/
theorem fold_maximumf {n : Nat} (init : EReal) (f : Fin n → EReal) :
    (Finset.univ : Finset (Fin n)).fold (FloatOps.maximumf (F := Ideal) (φ := .f32)) init f
      = (Finset.univ : Finset (Fin n)).fold max init f := rfl

/-- The row maximum of the scores, folded from `-∞`. -/
theorem v9_at (b : Fin 16) (s : Fin 2048) :
    val_main_v9 (F := Ideal) x0 x1 x3 x4 x5 (ix2 b s)
      = Cert.Spec.rowMax (fun d => Cert.Spec.refScore x0 x1 x3 x4 x5 b s d) := by
  unfold val_main_v9
  rw [Host.reduce_eq_fold_single FloatOps.maximumf _ _ reducesTo_S16x2048x2048_S16x2048_d2 reduces_last h_S_ (ix2 b s)]
  have hf : (val_main_v8 (F := Ideal) x0 x1 x3 x4 x5 ∘ reduces_last.lift (ix2 b s))
      = fun d : Fin 2048 => Cert.Spec.refScore x0 x1 x3 x4 x5 b s d := by
    refine funext fun (d : Fin 2048) => ?_
    exact (congrArg (val_main_v8 (F := Ideal) x0 x1 x3 x4 x5) (lift_at b s d)).trans
      (v8_at x0 x1 x3 x4 x5 b s d)
  rw [hf, val_main_cst_0_apply]
  exact fold_maximumf _ _

/-- A fold of `max` from `-∞` is at least `-∞`, so taking the maximum with `-∞` once more changes nothing. -/
theorem max_negInf_rowMax (sc : Fin 2048 → EReal) :
    max Cert.Spec.negInf (Cert.Spec.rowMax sc) = Cert.Spec.rowMax sc :=
  max_eq_right (by unfold Cert.Spec.rowMax; exact (Finset.le_fold_max _).mpr (Or.inl le_rfl))

theorem v11_at (b : Fin 16) (s : Fin 2048) :
    val_main_v11 (F := Ideal) x0 x1 x3 x4 x5 (ix2 b s)
      = Cert.Spec.rowMax (fun d => Cert.Spec.refScore x0 x1 x3 x4 x5 b s d) := by
  rw [val_main_v11_apply, val_main_v10_apply, val_main_cst_1_apply, v9_at]
  exact max_negInf_rowMax _

/-- The row maximum, broadcast back along the row. -/
theorem v13_at (b : Fin 16) (s d : Fin 2048) :
    val_main_v13 (F := Ideal) x0 x1 x3 x4 x5 (ix3 b s d)
      = Cert.Spec.rowMax (fun d => Cert.Spec.refScore x0 x1 x3 x4 x5 b s d) := by
  rw [val_main_v13_apply, val_main_v12_apply]
  have e : idx_main_v12 (idx_main_v13 (ix3 b s d)) = ix2 b s :=
    funext fun a => Fin.ext (by match a with | ⟨0, _⟩ => rfl | ⟨1, _⟩ => rfl)
  rw [e, v11_at]

/-! ## The softmax and the result -/

/-- `exp (score − row maximum)` at `(b, s, d)`. -/
theorem v15_at (b : Fin 16) (s d : Fin 2048) :
    val_main_v15 (F := Ideal) x0 x1 x3 x4 x5 (ix3 b s d)
      = Ideal.exp (Cert.Spec.refScore x0 x1 x3 x4 x5 b s d
          - Cert.Spec.rowMax (fun d => Cert.Spec.refScore x0 x1 x3 x4 x5 b s d)) := by
  rw [val_main_v15_apply, val_main_v14_apply, v8_at, v13_at]
  rfl

/-- The row's sum of exponentials: the float sum starts from the zero pattern, which is `0`. -/
theorem v16_at (b : Fin 16) (s : Fin 2048) :
    val_main_v16 (F := Ideal) x0 x1 x3 x4 x5 (ix2 b s)
      = ∑ d' : Fin 2048, Ideal.exp (Cert.Spec.refScore x0 x1 x3 x4 x5 b s d'
          - Cert.Spec.rowMax (fun d => Cert.Spec.refScore x0 x1 x3 x4 x5 b s d)) := by
  rw [val_main_v16_apply, val_main_cst_2_apply, Ideal.ofBits_def, Ideal.ofBits_zero_f32, zero_add]
  refine Finset.sum_congr rfl fun k _ => ?_
  have e : idx_main_v16 (ix2 b s) k = ix3 b s k :=
    funext fun a => Fin.ext (by match a with | ⟨0, _⟩ => rfl | ⟨1, _⟩ => rfl | ⟨2, _⟩ => rfl)
  rw [e, v15_at]

/-- The softmax entry at `(b, s, d)`. -/
theorem v19_at (b : Fin 16) (s d : Fin 2048) :
    val_main_v19 (F := Ideal) x0 x1 x3 x4 x5 (ix3 b s d)
      = Cert.Spec.soft (fun d => Cert.Spec.refScore x0 x1 x3 x4 x5 b s d) d := by
  rw [val_main_v19_apply, v15_at, val_main_v18_apply, val_main_v17_apply]
  have e : idx_main_v17 (idx_main_v18 (ix3 b s d)) = ix2 b s :=
    funext fun a => Fin.ext (by match a with | ⟨0, _⟩ => rfl | ⟨1, _⟩ => rfl)
  rw [e, v16_at]
  rfl

/-- The reference's result at `(b, s, o)`: the softmax row against the column of `v`. -/
theorem v20_at (b : Fin 16) (s : Fin 2048) (o : Fin 256) :
    val_main_v20 (F := Ideal) x0 x1 x2 x3 x4 x5 (ix3 b s o) = Cert.Spec.refAt x0 x1 x2 x3 x4 x5 b s o := by
  rw [val_main_v20_apply]
  unfold Cert.Spec.refAt Cert.Spec.attend
  refine Finset.sum_congr rfl fun k _ => ?_
  have el : lidx_main_v20 (ix3 b s o) k = ix3 b s k :=
    funext fun a => Fin.ext (by match a with | ⟨0, _⟩ => rfl | ⟨1, _⟩ => rfl | ⟨2, _⟩ => rfl)
  have er : ridx_main_v20 (ix3 b s o) k = ix3 b k o :=
    funext fun a => Fin.ext (by match a with | ⟨0, _⟩ => rfl | ⟨1, _⟩ => rfl | ⟨2, _⟩ => rfl)
  rw [el, er, v19_at, v0_at]

/-- The reference's result array is the specification's `refOut`. -/
theorem ref_eq (x0 x1 : (⟨S16x2048x256, .f32⟩ : BufTy).Contents (Elt Ideal))
    (x2 x3 x4 : (⟨S256x256, .f32⟩ : BufTy).Contents (Elt Ideal))
    (x5 : (⟨S2048x256, .f32⟩ : BufTy).Contents (Elt Ideal)) :
    val_main_v20 (F := Ideal) x0 x1 x2 x3 x4 x5 = Cert.Spec.refOut x0 x1 x2 x3 x4 x5 := by
  funext i
  have hi : i = ix3 (⟨(i 0).val, (i 0).isLt⟩ : Fin 16) (⟨(i 1).val, (i 1).isLt⟩ : Fin 2048)
      (⟨(i 2).val, (i 2).isLt⟩ : Fin 256) :=
    funext fun a => Fin.ext (by match a with | ⟨0, _⟩ => rfl | ⟨1, _⟩ => rfl | ⟨2, _⟩ => rfl)
  exact (congrArg (val_main_v20 (F := Ideal) x0 x1 x2 x3 x4 x5) hi).trans
    (v20_at x0 x1 x2 x3 x4 x5 _ _ _)

end Cert.RefSide

end
-- ==== Proof.Algebra.lean ====
/-
  The algebra of the certificate: with every entry of the activations and of the weights a real number,
  the reference's scores and the kernel's scores agree, hence so do the two results.

  Over the reals both scores are the triple sum `∑ₜ ∑ₑ q[s,e] · k[t,e] · a[t,d]` times `1/16`:
  the reference contracts `e` first and then `t`, the kernel contracts `t` first (in four runs of 512
  positions, added from zero) and then `e`; the kernel's extra term `∑ₑ q[s,e] · (M[e,d] − M[e,d])` is a
  sum of zeros because `M[e,d]` is a real number; `√256 = 16`, and dividing by `16` is multiplying by
  `0.0625`.  The softmax and the product with `v` are one shared definition and are never opened.
-/
import proofs.«165236_j90744069030056_2_alg».proof.Proof.Spec

noncomputable section

namespace Cert.Spec

open Idealize.ShloMosaic Idealize.ShloMosaic.ValueIdx

/-! ### Coercions of finite real sums -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_coe_mul_coe {ι : Type*} [Fintype ι] (f g : ι → ℝ) :
    (∑ i, (f i : EReal) * (g i : EReal)) = ((∑ i, f i * g i : ℝ) : EReal) := by
  rw [coe_finset_sum]
  exact Finset.sum_congr rfl (fun i _ => (EReal.coe_mul _ _).symm)

/-! ### The two scale constants -/

/-- The pattern `0x43800000` denotes `256`. -/
theorem ofBits_256 : Ideal.ofBits .f32 0x43800000#32 = ((256 : ℝ) : EReal) := by
  simp [Ideal.ofBits, Ideal.ieee, -EReal.coe_mul]; norm_num

/-- The pattern `0x3D800000` denotes `1/16 = 0.0625`. -/
theorem ofBits_sixteenth : Ideal.ofBits .f32 0x3D800000#32 = ((1 / 16 : ℝ) : EReal) := by
  simp [Ideal.ofBits, Ideal.ieee, -EReal.coe_mul]; norm_num

/-- `√256 = 16`. -/
theorem sqrt_256 : Ideal.sqrt ((256 : ℝ) : EReal) = ((16 : ℝ) : EReal) := by
  show (if (256 : ℝ) < 0 then (⊥ : EReal) else (Real.sqrt 256 : EReal)) = _
  rw [if_neg (by norm_num)]
  congr 1
  rw [show (256 : ℝ) = 16 ^ 2 by norm_num, Real.sqrt_sq (by norm_num)]

/-! ### The 2048 positions as four runs of 512 -/

/-- `(k, r) ↦ 512·k + r` is a bijection from `Fin 4 × Fin 512` onto `Fin 2048` (quotient and remainder by 512). -/
def posEquiv : Fin 4 × Fin 512 ≃ Fin 2048 where
  toFun p := pos p.1 p.2
  invFun t := (⟨t.val / 512, by omega⟩, ⟨t.val % 512, Nat.mod_lt _ (by norm_num)⟩)
  left_inv := by
    rintro ⟨k, r⟩
    apply Prod.ext
    · apply Fin.ext
      show (512 * k.val + r.val) / 512 = k.val
      omega
    · apply Fin.ext
      show (512 * k.val + r.val) % 512 = r.val
      omega
  right_inv := by
    intro t
    apply Fin.ext
    show 512 * (t.val / 512) + t.val % 512 = t.val
    omega

/-- A sum over the 2048 positions is the sum of the sums over the four runs. -/
theorem sum_runs (f : Fin 2048 → ℝ) :
    ∑ t, f t = (∑ r, f (pos 0 r)) + (∑ r, f (pos 1 r)) + (∑ r, f (pos 2 r)) + (∑ r, f (pos 3 r)) := by
  rw [← Equiv.sum_comp posEquiv f, Fintype.sum_prod_type, Fin.sum_univ_four]
  rfl

/-! ### The identity over the reals -/

/-- Contracting `e` then `t` equals contracting `t` then `e`. -/
theorem real_assoc (q : Fin 256 → ℝ) (k : Fin 2048 → Fin 256 → ℝ) (a : Fin 2048 → ℝ) :
    ∑ t, (∑ e, q e * k t e) * a t = ∑ e, q e * ∑ t, k t e * a t := by
  simp only [Finset.sum_mul, Finset.mul_sum]
  rw [Finset.sum_comm]
  exact Finset.sum_congr rfl (fun e _ => Finset.sum_congr rfl (fun t _ => mul_assoc _ _ _))

/-! ### Real projections -/

/-- A projection of real activations by real weights is real. -/
theorem proj_real (x : Act) (w : Sq) (hx : ∀ i, ∃ r : ℝ, x i = (r : EReal))
    (hw : ∀ i, ∃ r : ℝ, w i = (r : EReal)) (b : Fin 16) (s : Fin 2048) (o : Fin 256) :
    ∃ r : ℝ, proj x w b s o = (r : EReal) := by
  choose X hX using hx
  choose W hW using hw
  refine ⟨∑ e : Fin 256, X (ix3 b s e) * W (ix2 o e), ?_⟩
  unfold proj
  simp only [hX, hW]
  exact sum_coe_mul_coe (fun e => X (ix3 b s e)) (fun e => W (ix2 o e))

/-- The wide projection of real activations by real weights is real. -/
theorem projWide_real (y : Act) (w : Wide) (hy : ∀ i, ∃ r : ℝ, y i = (r : EReal))
    (hw : ∀ i, ∃ r : ℝ, w i = (r : EReal)) (b : Fin 16) (t d : Fin 2048) :
    ∃ r : ℝ, projWide y w b t d = (r : EReal) := by
  choose Y hY using hy
  choose W hW using hw
  refine ⟨∑ e : Fin 256, Y (ix3 b t e) * W (ix2 d e), ?_⟩
  unfold projWide
  simp only [hY, hW]
  exact sum_coe_mul_coe (fun e => Y (ix3 b t e)) (fun e => W (ix2 d e))

/-! ### The scores at real projections -/

section Scores

variable (x y : Act) (wk wq : Sq) (wa : Wide) (b : Fin 16) (s d : Fin 2048)
  (q : Fin 256 → ℝ) (k : Fin 2048 → Fin 256 → ℝ) (a : Fin 2048 → ℝ)

/-- A run's contribution to `M[e,d]` is the real sum over the run. -/
theorem tile_real (hk : ∀ t e, proj x wk b t e = (k t e : EReal))
    (ha : ∀ t, projWide y wa b t d = (a t : EReal)) (j : Fin 4) (e : Fin 256) :
    tile x y wk wa b j e d = ((∑ r, k (pos j r) e * a (pos j r) : ℝ) : EReal) := by
  unfold tile
  simp only [hk, ha]
  exact sum_coe_mul_coe (fun r => k (pos j r) e) (fun r => a (pos j r))

/-- The accumulated `M[e,d]` is the real sum over all 2048 positions. -/
theorem accM_real (hk : ∀ t e, proj x wk b t e = (k t e : EReal))
    (ha : ∀ t, projWide y wa b t d = (a t : EReal)) (e : Fin 256) :
    accM x y wk wa b e d = ((∑ t, k t e * a t : ℝ) : EReal) := by
  unfold accM
  simp only [tile_real x y wk wa b d k a hk ha, zero_add, ← EReal.coe_add]
  congr 1
  exact (sum_runs (fun t => k t e * a t)).symm

/-- The kernel's score is the real triple sum times `1/16`. -/
theorem kerScore_real (hq : ∀ e, proj x wq b s e = (q e : EReal))
    (hk : ∀ t e, proj x wk b t e = (k t e : EReal))
    (ha : ∀ t, projWide y wa b t d = (a t : EReal)) :
    kerScore x y wk wq wa b s d = (((∑ e, q e * ∑ t, k t e * a t) * (1 / 16) : ℝ) : EReal) := by
  unfold kerScore
  -- `M[e,d]` is real, so `M[e,d] − M[e,d] = 0` and the second sum is a sum of zeros
  simp only [hq, accM_real x y wk wa b d k a hk ha, ← EReal.coe_sub, sub_self, EReal.coe_zero, mul_zero,
    Finset.sum_const_zero, add_zero]
  rw [sum_coe_mul_coe q (fun e => ∑ t, k t e * a t), ofBits_sixteenth, ← EReal.coe_mul]

/-- The reference's score is the real triple sum, contracted the other way, times `1/16`. -/
theorem refScore_real (hq : ∀ e, proj x wq b s e = (q e : EReal))
    (hk : ∀ t e, proj x wk b t e = (k t e : EReal))
    (ha : ∀ t, projWide y wa b t d = (a t : EReal)) :
    refScore x y wk wq wa b s d = (((∑ t, (∑ e, q e * k t e) * a t) * (1 / 16) : ℝ) : EReal) := by
  unfold refScore
  simp only [hq, hk, ha]
  have h1 : ∀ t, (∑ e, (q e : EReal) * (k t e : EReal)) = ((∑ e, q e * k t e : ℝ) : EReal) :=
    fun t => sum_coe_mul_coe q (k t)
  simp only [h1]
  rw [sum_coe_mul_coe (fun t => ∑ e, q e * k t e) a, ofBits_256, sqrt_256,
    Ideal.div_coe (by norm_num : (16 : ℝ) ≠ 0), ← EReal.coe_mul]

end Scores

/-! ### The scores and the results -/

/-- At real inputs the reference's score and the kernel's score agree. -/
theorem refScore_eq_kerScore (x y : Act) (wk wq : Sq) (wa : Wide)
    (hx : ∀ i, ∃ r : ℝ, x i = (r : EReal)) (hy : ∀ i, ∃ r : ℝ, y i = (r : EReal))
    (hk : ∀ i, ∃ r : ℝ, wk i = (r : EReal)) (hq : ∀ i, ∃ r : ℝ, wq i = (r : EReal))
    (ha : ∀ i, ∃ r : ℝ, wa i = (r : EReal)) (b : Fin 16) (s d : Fin 2048) :
    refScore x y wk wq wa b s d = kerScore x y wk wq wa b s d := by
  choose q hq' using fun e => proj_real x wq hx hq b s e
  choose k hk' using fun t e => proj_real x wk hx hk b t e
  choose a ha' using fun t => projWide_real y wa hy ha b t d
  rw [refScore_real x y wk wq wa b s d q k a hq' hk' ha', kerScore_real x y wk wq wa b s d q k a hq' hk' ha',
    real_assoc q k a]

/-- At real inputs the reference's result and the kernel's result are the same array. -/
theorem refOut_eq_kerOut (x y : Act) (wv wk wq : Sq) (wa : Wide)
    (hx : ∀ i, ∃ r : ℝ, x i = (r : EReal)) (hy : ∀ i, ∃ r : ℝ, y i = (r : EReal))
    (hk : ∀ i, ∃ r : ℝ, wk i = (r : EReal)) (hq : ∀ i, ∃ r : ℝ, wq i = (r : EReal))
    (ha : ∀ i, ∃ r : ℝ, wa i = (r : EReal)) :
    refOut x y wv wk wq wa = kerOut x y wv wk wq wa := by
  have hs : ∀ (b : Fin 16) (s : Fin 2048),
      (fun d => refScore x y wk wq wa b s d) = (fun d => kerScore x y wk wq wa b s d) :=
    fun b s => funext (fun d => refScore_eq_kerScore x y wk wq wa hx hy hk hq ha b s d)
  funext i
  simp only [refOut, kerOut, refAt, kerAt, hs]

end Cert.Spec

end
-- ==== Proof.Finite.lean ====
/-
  The precondition read back: when the printed predicate — the conjunction of six tests "every entry has `|x| < +∞`", one per
  argument array — is true, every entry of every argument is a real number.

  The predicate's result is a conjunction of six one-bit words, so each is 1; a reduction by `and` over all axes that
  is 1 met a 1 at every index; a 1 at an index says `max x (−x) < +∞` of the entry `x` there (the pattern
  `0x7F800000` denotes `+∞`), which excludes `x = +∞` and `x = −∞`; an extended real that is neither is a real.
-/
import proofs.«165236_j90744069030056_2_alg».proof.Pre_finite_inputs
import Idealize.ShloMosaic.Lib.ReduceAll
import Idealize.ShloMosaic.Lib.ValueIdx
import Idealize.ShloMosaic.Lib.IdealHost
import Idealize.ShloMosaic.PureOps.Ideal

namespace Cert.Finite

open Idealize.ShloMosaic Cert.Pre_finite_inputs

/-- The result of a reduction over all axes has a single index. -/
instance : Subsingleton S_.Idx := ⟨fun a b => funext fun d => d.elim0⟩

/-- An extended real `x` with `max x (−x) < +∞` (the comparison came out 1) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One test "every entry of `a` has `|x| < +∞`" that is true: every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) (i : s.Idx) : ∃ r : ℝ, a i = (r : EReal) := by
  have hi := Host.reduce_andi_all _ _ hr hu ValueIdx.ix0 e i
  rw [ValueIdx.cmpf_apply, ValueIdx.broadcastInDim_scalar_apply] at hi
  exact real_of_abs_lt_inf (a i) hi

/-- The precondition true: every entry of each of the six arguments is a real. -/
theorem finite_of_fn [Facts] (a0 a1 : FVec Ideal S16x2048x256 .f32) (a2 a3 a4 : FVec Ideal S256x256 .f32)
    (a5 : FVec Ideal S2048x256 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3,
    real_of_all a4 _ _ _ h4, real_of_all a5 _ _ _ h5⟩

end Cert.Finite
-- ==== Proof.lean ====
/-
  The certificate: the fused attention kernel against its reference, over the extended reals.

  Both programs compute, per batch, `softmax(scores) · v` with `v = x·W_vᵀ`; the reference takes the scores as
  `((q·kᵀ)·a) / √256`, the kernel as `(q·M + q·(M − M)) · 0.0625` with `M = kᵀ·a` accumulated over four runs of 512
  positions.  With every input a real number, `M − M = 0`, the two contractions associate, the four runs add up to the
  whole contraction and dividing by `√256 = 16` is multiplying by `0.0625`: the scores agree, and the softmax and the
  product with `v` are one function of them on both sides (`Cert.Spec.refOut_eq_kerOut`).
  The reference's result is `refOut` of the arguments (its run, read operation by operation); the kernel's is
  `kerOut`: each grid point writes back the body's output block of the point's input blocks (the body's two counted
  loops read off their trips), and that block is the batch's slab of `kerOut`.  The three frames are the programs'
  runs with the results dropped; the one rewrite the idealization made (a bf16 round trip removed) is its rule's statement.
-/
import proofs.«165236_j90744069030056_2_alg».proof.Defs
import proofs.«165236_j90744069030056_2_alg».proof.Proof.Gen.Kernel
import proofs.«165236_j90744069030056_2_alg».proof.Proof.Gen.KernelIdeal
import proofs.«165236_j90744069030056_2_alg».proof.Proof.Gen.ReferenceIdeal
import proofs.«165236_j90744069030056_2_alg».proof.Proof.Gen.Pre_finite_inputs
import proofs.«165236_j90744069030056_2_alg».proof.Proof.Gen.ReferenceIdeal.Run
import proofs.«165236_j90744069030056_2_alg».proof.Proof.Gen.ReferenceIdeal.Read
import proofs.«165236_j90744069030056_2_alg».proof.Proof.KernelFrame
import proofs.«165236_j90744069030056_2_alg».proof.Proof.KernelIdealFrame
import proofs.«165236_j90744069030056_2_alg».proof.Proof.Final
import proofs.«165236_j90744069030056_2_alg».proof.Proof.RefSide
import proofs.«165236_j90744069030056_2_alg».proof.Proof.Algebra
import proofs.«165236_j90744069030056_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: a value narrowed to bf16 and widened back is the value. -/
theorem preserves : Cert.preserves_Kernel_KernelIdeal :=
  IdealRules.truncf_extf.statement _ .f32 .bf16

/-- Both runs end with the result at `kerOut` of the (agreeing, finite) arguments. -/
theorem algebraic : Cert.algebraic_KernelIdeal_ReferenceIdeal := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f1, -, f3, f4, f5⟩ := Cert.Finite.finite_of_fn _ _ _ _ _ _ (hpre c)
  rw [Cert.ReferenceIdeal.Read.val_main_v20_eq, Cert.RefSide.ref_eq, a0, a1, a2, a3, a4, a5]
  exact Cert.Spec.refOut_eq_kerOut _ _ _ _ _ _ f0 f1 f3 f4 f5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
